-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x16 : Shape := ⟨2, ![64, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg8 : FVec F S16x7 .f32) (main_arg9 : FVec F S7 .f32) (main_v33 : IVec S_ 1) : IVec S_ 1 :=
  let main_v34 : FVec F S16x7 .f32 := Host.absf main_arg8
  let main_cst_12 : FVec F S_ .f32 := constant S_ .f32 0x7F800000#32
  let main_v35 : FVec F S16x7 .f32 := broadcastInDim S16x7 ![] bcast_S_S16x7 main_cst_12
  let main_v36 : IVec S16x7 1 := cmpf .olt main_v34 main_v35
  let main_c_13 : IVec S_ 1 := constantI S_ 1 1#1
  let main_v37 : IVec S_ 1 := (fun x v => Host.reduce IntOp.andi x v reducesTo_S16x7_S_d0_1 h_S_) main_v36 main_c_13
  let main_v38 : IVec S_ 1 := andi main_v33 main_v37
  let main_v39 : FVec F S7 .f32 := Host.absf main_arg9
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  main_v43

def fn_part1 {F : FTy → Type} [FloatOps F] (main_arg5 : FVec F S16 .f32) (main_arg6 : FVec F S16x16 .f32) (main_arg7 : FVec F S16 .f32) (main_arg8 : FVec F S16x7 .f32) (main_arg9 : FVec F S7 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S64x16 .f32) (main_arg3 : FVec F S16 .f32) (main_arg4 : FVec F S16x16 .f32) (main_arg5 : FVec F S16 .f32) (main_arg6 : FVec F S16x16 .f32) (main_arg7 : FVec F S16 .f32) (main_arg8 : FVec F S16x7 .f32) (main_arg9 : FVec F S7 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S64x16 : Shape := ⟨2, ![64, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S1x1250000 : Shape := ⟨2, ![1, 1250000]⟩
abbrev S1250000 : Shape := ⟨1, ![1250000]⟩
abbrev S100000x16 : Shape := ⟨2, ![100000, 16]⟩
abbrev S5000x64 : Shape := ⟨2, ![5000, 64]⟩
abbrev S5000x16 : Shape := ⟨2, ![5000, 16]⟩
abbrev S_ : Shape := ⟨0, ![]⟩
abbrev S1250000x1 : Shape := ⟨2, ![1250000, 1]⟩
abbrev S1250000x16 : Shape := ⟨2, ![1250000, 16]⟩
abbrev S1x16 : Shape := ⟨2, ![1, 16]⟩
abbrev S1x7 : Shape := ⟨2, ![1, 7]⟩
abbrev S100000x7 : Shape := ⟨2, ![100000, 7]⟩
abbrev S5000x7 : Shape := ⟨2, ![5000, 7]⟩
abbrev S5000 : Shape := ⟨1, ![5000]⟩
abbrev S5000x1 : Shape := ⟨2, ![5000, 1]⟩

abbrev nBuf : Space → Nat
  | .hbm => 47
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S100000x16, .f32⟩
  | .hbm, ⟨15, _⟩ => ⟨S_, .i32⟩
  | .hbm, ⟨16, _⟩ => ⟨S1250000, .i32⟩
  | .hbm, ⟨17, _⟩ => ⟨S1250000, .i1⟩
  | .hbm, ⟨18, _⟩ => ⟨S_, .i32⟩
  | .hbm, ⟨19, _⟩ => ⟨S1250000, .i32⟩
  | .hbm, ⟨20, _⟩ => ⟨S1250000, .i32⟩
  | .hbm, ⟨21, _⟩ => ⟨S1250000, .i32⟩
  | .hbm, ⟨22, _⟩ => ⟨S1250000x1, .i32⟩
  | .hbm, ⟨23, _⟩ => ⟨S1250000x16, .f32⟩
  | .hbm, ⟨24, _⟩ => ⟨S_, .f32⟩
  | .hbm, ⟨25, _⟩ => ⟨S100000x16, .f32⟩
  | .hbm, ⟨26, _⟩ => ⟨S1250000x1, .i32⟩
  | .hbm, ⟨27, _⟩ => ⟨S100000x16, .f32⟩
  | .hbm, ⟨28, _⟩ => ⟨S1x16, .f32⟩
  | .hbm, ⟨29, _⟩ => ⟨S1x16, .f32⟩
  | .hbm, ⟨30, _⟩ => ⟨S100000x16, .f32⟩
  | .hbm, ⟨31, _⟩ => ⟨S_, .i32⟩
  | .hbm, ⟨32, _⟩ => ⟨S1250000, .i32⟩
  | .hbm, ⟨33, _⟩ => ⟨S1250000, .i1⟩
  | .hbm, ⟨34, _⟩ => ⟨S_, .i32⟩
  | .hbm, ⟨35, _⟩ => ⟨S1250000, .i32⟩
  | .hbm, ⟨36, _⟩ => ⟨S1250000, .i32⟩
  | .hbm, ⟨37, _⟩ => ⟨S1250000, .i32⟩
  | .hbm, ⟨38, _⟩ => ⟨S1250000x1, .i32⟩
  | .hbm, ⟨39, _⟩ => ⟨S1250000x16, .f32⟩
  | .hbm, ⟨40, _⟩ => ⟨S_, .f32⟩
  | .hbm, ⟨41, _⟩ => ⟨S100000x16, .f32⟩
  | .hbm, ⟨42, _⟩ => ⟨S1250000x1, .i32⟩
  | .hbm, ⟨43, _⟩ => ⟨S100000x16, .f32⟩
  | .hbm, ⟨44, _⟩ => ⟨S1x16, .f32⟩
  | .hbm, ⟨45, _⟩ => ⟨S1x7, .f32⟩
  | .hbm, ⟨46, _⟩ => ⟨S100000x7, .f32⟩
  | .local _ .vmem, ⟨0, _⟩ => ⟨S5000x64, .f32⟩
  | .local _ .vmem, ⟨1, _⟩ => ⟨S5000x64, .f32⟩
  | .local _ .vmem, ⟨2, _⟩ => ⟨S64x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S1x16, .f32⟩
  | .local _ .vmem, ⟨10, _⟩ => ⟨S16x16, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x16, .f32⟩
  | .local _ .vmem, ⟨19, _⟩ => ⟨S1x16, .f32⟩
  | .local _ .vmem, ⟨20, _⟩ => ⟨S16x7, .f32⟩
  | .local _ .vmem, ⟨21, _⟩ => ⟨S1x7, .f32⟩
  | .local _ .vmem, ⟨22, _⟩ => ⟨S5000x7, .f32⟩
  | .local _ .vmem, ⟨23, _⟩ => ⟨S5000x7, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x7 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x7 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x7 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  shapeCasts_S7_S1x7 : S7.ShapeCasts S1x7
  inb_S16x7_S16x7_0_0 : ∀ a, (![0, 0] : Fin 2 → Nat) a + S16x7.size a ≤ S16x7.size a
  h_S16x7 : 0 < S16x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  reduces_S5000x7_S5000 : S5000x7.Reduces [1] S5000
  shapeCasts_S5000_S5000x1 : S5000.ShapeCasts S5000x1
  broadcasts_S5000x1_S5000x7 : S5000x1.Broadcasts S5000x7
  inb_S5000x7_S5000x7_0_0 : ∀ a, (![0, 0] : Fin 2 → Nat) a + S5000x7.size a ≤ S5000x7.size a
  h_S5000x7 : 0 < S5000x7.numel
  dot_S5000x64_S64x16_S5000x16_1_0_0_1_n_n_wf : DotDims.WF S5000x64 S64x16 S5000x16 [1] [0] [0] [1] [] []
  gather_S100000x16_S1250000x1_S1250000x16_1_0_n_n_0_1_116_wf : GatherDims.WF S100000x16 S1250000x1 S1250000x16 [1] [0] [] [0] [] 1 ![1, 16]
  scatter_S100000x16_S1250000x1_S1250000x16_1_0_0_1_wf : ScatterDims.WF S100000x16 S1250000x1 S1250000x16 [1] [0] [0] 1
  dot_S5000x16_S16x16_S5000x16_1_0_0_1_n_n_wf : DotDims.WF S5000x16 S16x16 S5000x16 [1] [0] [0] [1] [] []
  dot_S5000x16_S16x7_S5000x7_1_0_0_1_n_n_wf : DotDims.WF S5000x16 S16x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x7.size a ≤ S16x7.size a
  hwx2_4 : ∀ i : grid2.Coords, EltTy.bits .f32 = 32 ∨ (Rect.block (s := S16x7) S16x7.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x7.size a ≤ S1x7.size a
  hwx2_5 : ∀ i : grid2.Coords, EltTy.bits .f32 = 32 ∨ (Rect.block (s := S1x7) S1x7.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x7.size a ≤ S100000x7.size a
  hwx2_6 : ∀ i : grid2.Coords, EltTy.bits .f32 = 32 ∨ (Rect.block (s := S100000x7) S5000x7.size (cc2_transform_6 i) (hinb2_6 i)).WholeWords (EltTy.packing .f32)

variable [Facts₀]

def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1250000x1_S1250000x16_1_0_n_n_0_1_116 : GatherDims S100000x16 S1250000x1 S1250000x16 where
  offsetDims := [1]
  collapsedSliceDims := [0]
  operandBatchingDims := []
  startIndicesBatchingDims := []
  startIndexMap := [0]
  indexVectorDim := 1
  sliceSizes := ![1, 16]
  wf := gather_S100000x16_S1250000x1_S1250000x16_1_0_n_n_0_1_116_wf
def scatter_S100000x16_S1250000x1_S1250000x16_1_0_0_1 : ScatterDims S100000x16 S1250000x1 S1250000x16 where
  updateWindowDims := [1]
  insertedWindowDims := [0]
  scatterDimsToOperandDims := [0]
  indexVectorDim := 1
  wf := scatter_S100000x16_S1250000x1_S1250000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S16x7.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1x7.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S5000x7.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x16 : Shape := ⟨2, ![64, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x16 : Shape := ⟨2, ![100000, 16]⟩
abbrev S1x16 : Shape := ⟨2, ![1, 16]⟩
abbrev S1250000x16 : Shape := ⟨2, ![1250000, 16]⟩
abbrev S100000x7 : Shape := ⟨2, ![100000, 7]⟩
abbrev S1x7 : Shape := ⟨2, ![1, 7]⟩
abbrev S100000 : Shape := ⟨1, ![100000]⟩
abbrev S100000x1 : Shape := ⟨2, ![100000, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S100000x64, .f32⟩
  | .hbm, ⟨28, _⟩ => ⟨S100000x16, .f32⟩
  | .hbm, ⟨29, _⟩ => ⟨S1x16, .f32⟩
  | .hbm, ⟨30, _⟩ => ⟨S100000x16, .f32⟩
  | .hbm, ⟨31, _⟩ => ⟨S100000x16, .f32⟩
  | .hbm, ⟨32, _⟩ => ⟨S_, .f32⟩
  | .hbm, ⟨33, _⟩ => ⟨S100000x16, .f32⟩
  | .hbm, ⟨34, _⟩ => ⟨S100000x16, .f32⟩
  | .hbm, ⟨35, _⟩ => ⟨S100000x16, .f32⟩
  | .hbm, ⟨36, _⟩ => ⟨S1x16, .f32⟩
  | .hbm, ⟨37, _⟩ => ⟨S100000x16, .f32⟩
  | .hbm, ⟨38, _⟩ => ⟨S100000x16, .f32⟩
  | .hbm, ⟨39, _⟩ => ⟨S_, .f32⟩
  | .hbm, ⟨40, _⟩ => ⟨S100000x16, .f32⟩
  | .hbm, ⟨41, _⟩ => ⟨S100000x16, .f32⟩
  | .hbm, ⟨42, _⟩ => ⟨S_, .f32⟩
  | .hbm, ⟨43, _⟩ => ⟨S100000x16, .f32⟩
  | .hbm, ⟨44, _⟩ => ⟨S100000x16, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x16, .f32⟩
  | .hbm, ⟨54, _⟩ => ⟨S_, .f32⟩
  | .hbm, ⟨55, _⟩ => ⟨S100000x16, .f32⟩
  | .hbm, ⟨56, _⟩ => ⟨S1250000x1, .i32⟩
  | .hbm, ⟨57, _⟩ => ⟨S100000x16, .f32⟩
  | .hbm, ⟨58, _⟩ => ⟨S100000x16, .f32⟩
  | .hbm, ⟨59, _⟩ => ⟨S100000x16, .f32⟩
  | .hbm, ⟨60, _⟩ => ⟨S1x16, .f32⟩
  | .hbm, ⟨61, _⟩ => ⟨S100000x16, .f32⟩
  | .hbm, ⟨62, _⟩ => ⟨S100000x16, .f32⟩
  | .hbm, ⟨63, _⟩ => ⟨S_, .f32⟩
  | .hbm, ⟨64, _⟩ => ⟨S100000x16, .f32⟩
  | .hbm, ⟨65, _⟩ => ⟨S100000x16, .f32⟩
  | .hbm, ⟨66, _⟩ => ⟨S100000x7, .f32⟩
  | .hbm, ⟨67, _⟩ => ⟨S1x7, .f32⟩
  | .hbm, ⟨68, _⟩ => ⟨S100000x7, .f32⟩
  | .hbm, ⟨69, _⟩ => ⟨S100000x7, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x7, .f32⟩
  | .hbm, ⟨77, _⟩ => ⟨S100000x7, .f32⟩
  | .hbm, ⟨78, _⟩ => ⟨S100000x7, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S100000x1, .f32⟩
  | .hbm, ⟨83, _⟩ => ⟨S100000x7, .f32⟩
  | .hbm, ⟨84, _⟩ => ⟨S100000x7, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_call2_cst : Ref sig .tc := ⟨.hbm, 42, rfl⟩
abbrev main_call2_v0 : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_cst : Ref sig .tc := ⟨.hbm, 63, rfl⟩
abbrev main_call3_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call4_cst : Ref sig .tc := ⟨.hbm, 70, rfl⟩
abbrev main_call4_v0 : Ref sig .tc := ⟨.hbm, 71, rfl⟩
abbrev main_call4_cst_0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_cst_1 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_v46 : Ref sig .tc := ⟨.hbm, 84, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x16_S100000x16_1_0_0_1_n_n_wf : DotDims.WF S100000x64 S64x16 S100000x16 [1] [0] [0] [1] [] []
  dot_S100000x16_S16x16_S100000x16_1_0_0_1_n_n_wf : DotDims.WF S100000x16 S16x16 S100000x16 [1] [0] [0] [1] [] []
  gather_S100000x16_S1250000x1_S1250000x16_1_0_n_n_0_1_116_wf : GatherDims.WF S100000x16 S1250000x1 S1250000x16 [1] [0] [] [0] [] 1 ![1, 16]
  scatter_S100000x16_S1250000x1_S1250000x16_1_0_0_1_wf : ScatterDims.WF S100000x16 S1250000x1 S1250000x16 [1] [0] [0] 1
  dot_S100000x16_S16x7_S100000x7_1_0_0_1_n_n_wf : DotDims.WF S100000x16 S16x7 S100000x7 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S1250000x1_S1250000x16_1_0_n_n_0_1_116 : GatherDims S100000x16 S1250000x1 S1250000x16 where
  offsetDims := [1]
  collapsedSliceDims := [0]
  operandBatchingDims := []
  startIndicesBatchingDims := []
  startIndexMap := [0]
  indexVectorDim := 1
  sliceSizes := ![1, 16]
  wf := gather_S100000x16_S1250000x1_S1250000x16_1_0_n_n_0_1_116_wf
def scatter_S100000x16_S1250000x1_S1250000x16_1_0_0_1 : ScatterDims S100000x16 S1250000x1 S1250000x16 where
  updateWindowDims := [1]
  insertedWindowDims := [0]
  scatterDimsToOperandDims := [0]
  indexVectorDim := 1
  wf := scatter_S100000x16_S1250000x1_S1250000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf

class Facts : Prop extends Facts₀ where

variable [Facts]
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.Spec.lean ====
/-
  The function both programs compute, written over plain finite index sets, and the one law that joins them.

  A graph has `N` nodes and `E` edges.  Edge `e` reads the features of node `r e` (its source) and delivers them to
  the node `n` for which `p e n` holds (its target; an edge may deliver to no node at all).  The NEIGHBOUR SUM of a
  feature table `X` is `agg r p X n j = ∑ e, if p e n then X (r e) j else 0`.

  The network is: a first linear layer applied to `X + agg X`, a bias, a rectifier; a second linear layer, bias,
  rectifier (twice); then on the result `H` again `H + agg H`, a linear layer, bias, rectifier, a last linear layer
  and bias, and a row-wise log-softmax.

  One program forms `(X + agg X) · W₁`; the other forms `X · W₁ + agg (X · W₁)`, which needs sixteen columns per edge
  instead of sixty-four.  The two agree because a matrix product is linear in its rows: for real entries
  `∑ k, (X n k + ∑ e, [p e n] X (r e) k) · W k j = ∑ k, X n k · W k j + ∑ e, [p e n] ∑ k, X (r e) k · W k j`.
  On the extended reals products distribute over sums only when nothing is infinite, so the law is stated for
  tables whose entries are real numbers.  Everything after the first layer is the same function on both sides.
-/
import Idealize.ShloMosaic.PureOps.Ideal
import Idealize.ShloMosaic.PureOps.Ideal.Laws
import proofs.«134208_j34832184770974_2_alg».proof.Proof.LibRealLaw

noncomputable section

namespace Cert.Gin

open Idealize.ShloMosaic Cert.Scores

variable {N E K D C : ℕ}

/-- The neighbour sum: node `n` collects, over the edges delivering to it, the source node's features. -/
def agg (r : Fin E → Fin N) (p : Fin E → Fin N → Prop) [∀ e n, Decidable (p e n)] (X : Fin N → Fin D → EReal)
    (n : Fin N) (j : Fin D) : EReal :=
  ∑ e : Fin E, if p e n then X (r e) j else 0

/-- A matrix product, entry by entry. -/
def mm (X : Fin N → Fin K → EReal) (W : Fin K → Fin D → EReal) (n : Fin N) (j : Fin D) : EReal :=
  ∑ k : Fin K, X n k * W k j

/-- The first layer before its rectifier, products first and neighbour sum after. -/
def lin1K (r : Fin E → Fin N) (p : Fin E → Fin N → Prop) [∀ e n, Decidable (p e n)] (X : Fin N → Fin K → EReal)
    (W : Fin K → Fin D → EReal) (b : Fin D → EReal) (n : Fin N) (j : Fin D) : EReal :=
  (mm X W n j + agg r p (mm X W) n j) + b j

/-- The first layer before its rectifier, neighbour sum first and products after. -/
def lin1R (r : Fin E → Fin N) (p : Fin E → Fin N → Prop) [∀ e n, Decidable (p e n)] (X : Fin N → Fin K → EReal)
    (W : Fin K → Fin D → EReal) (b : Fin D → EReal) (n : Fin N) (j : Fin D) : EReal :=
  mm (fun n k => X n k + agg r p X n k) W n j + b j

/-- Rectifier, second linear layer, bias, rectifier twice; `z` is the rectifier's floor. -/
def hidden (z : EReal) (L : Fin N → Fin K → EReal) (W : Fin K → Fin D → EReal) (b : Fin D → EReal) (n : Fin N) (j : Fin D) : EReal :=
  max (max (mm (fun n k => max (L n k) z) W n j + b j) z) z

/-- From a table `S`: a linear layer, bias, rectifier, the last linear layer and bias. -/
def logitsOf (z : EReal) (S : Fin N → Fin K → EReal) (W3 : Fin K → Fin D → EReal) (b3 : Fin D → EReal)
    (W4 : Fin D → Fin C → EReal) (b4 : Fin C → EReal) (n : Fin N) (c : Fin C) : EReal :=
  mm (fun n k => max (mm S W3 n k + b3 k) z) W4 n c + b4 c

/-- The second graph layer: `logitsOf` of `H + agg H`. -/
def logits (z : EReal) (r : Fin E → Fin N) (p : Fin E → Fin N → Prop) [∀ e n, Decidable (p e n)] (H : Fin N → Fin K → EReal)
    (W3 : Fin K → Fin D → EReal) (b3 : Fin D → EReal) (W4 : Fin D → Fin C → EReal) (b4 : Fin C → EReal) : Fin N → Fin C → EReal :=
  logitsOf z (fun n l => H n l + agg r p H n l) W3 b3 W4 b4

/-- The largest entry of row `n`, folded from `ninf`. -/
def rowMax (ninf : EReal) (Z : Fin N → Fin C → EReal) (n : Fin N) : EReal :=
  (Finset.univ : Finset (Fin C)).fold max ninf (fun c => Z n c)

/-- Row-wise log-softmax: the row shifted by its maximum, minus the logarithm of the sum of the shifted row's exponentials. -/
def logSoftmax (ninf : EReal) (Z : Fin N → Fin C → EReal) (n : Fin N) (c : Fin C) : EReal :=
  (Z n c - rowMax ninf Z n) - Ideal.log (∑ c' : Fin C, Ideal.exp (Z n c' - rowMax ninf Z n))

/-- Everything after the first layer's linear part. -/
def tail (z ninf : EReal) (r : Fin E → Fin N) (p : Fin E → Fin N → Prop) [∀ e n, Decidable (p e n)] (L : Fin N → Fin 16 → EReal)
    (W2 : Fin 16 → Fin 16 → EReal) (b2 : Fin 16 → EReal) (W3 : Fin 16 → Fin 16 → EReal) (b3 : Fin 16 → EReal)
    (W4 : Fin 16 → Fin 7 → EReal) (b4 : Fin 7 → EReal) : Fin N → Fin 7 → EReal :=
  logSoftmax ninf (logits z r p (hidden z L W2 b2) W3 b3 W4 b4)

/-- A real number or zero, by a condition, is a real number. -/
theorem ite_coe (q : Prop) [Decidable q] (a : ℝ) : (if q then (a : EReal) else 0) = ((if q then a else 0 : ℝ) : EReal) := by
  split <;> simp

/-- THE LAW: for real tables the matrix product commutes with the neighbour sum. -/
theorem lin1_eq (r : Fin E → Fin N) (p : Fin E → Fin N → Prop) [∀ e n, Decidable (p e n)] (X : Fin N → Fin K → EReal)
    (W : Fin K → Fin D → EReal) (b : Fin D → EReal) (hX : ∀ n k, IsReal (X n k)) (hW : ∀ k j, IsReal (W k j)) :
    lin1K r p X W b = lin1R r p X W b := by
  funext n j
  unfold lin1K lin1R
  congr 1
  choose X' hX' using hX
  choose W' hW' using hW
  have hmm : ∀ n j, mm X W n j = ((∑ k : Fin K, X' n k * W' k j : ℝ) : EReal) := fun n j => by
    unfold mm
    rw [coe_sum]
    exact Finset.sum_congr rfl fun k _ => by rw [hX', hW', EReal.coe_mul]
  have hagg : ∀ (Y : Fin N → Fin D → EReal) (Y' : Fin N → Fin D → ℝ), (∀ n j, Y n j = (Y' n j : EReal)) → ∀ n j,
      agg r p Y n j = ((∑ e : Fin E, if p e n then Y' (r e) j else 0 : ℝ) : EReal) := fun Y Y' h n j => by
    unfold agg
    rw [coe_sum]
    exact Finset.sum_congr rfl fun e _ => by rw [h, ite_coe]
  have haggX : ∀ n k, agg r p X n k = ((∑ e : Fin E, if p e n then X' (r e) k else 0 : ℝ) : EReal) := fun n k => by
    unfold agg
    rw [coe_sum]
    exact Finset.sum_congr rfl fun e _ => by rw [hX', ite_coe]
  rw [hmm n j, hagg (mm X W) (fun n j => ∑ k : Fin K, X' n k * W' k j) hmm n j, ← EReal.coe_add]
  unfold mm
  have hr : ∀ k : Fin K, (X n k + agg r p X n k) * W k j
      = (((X' n k + ∑ e : Fin E, if p e n then X' (r e) k else 0) * W' k j : ℝ) : EReal) := fun k => by
    rw [haggX, hX', hW', ← EReal.coe_add, ← EReal.coe_mul]
  rw [Finset.sum_congr rfl fun k _ => hr k, ← coe_sum]
  refine congrArg _ ?_
  simp only [add_mul, Finset.sum_add_distrib, Finset.sum_mul]
  congr 1
  rw [Finset.sum_comm]
  refine Finset.sum_congr rfl fun e _ => ?_
  split
  · rfl
  · simp

end Cert.Gin

end
-- ==== Proof.Agg.lean ====
/-
  The edge list as the two programs read it, and their gather-then-scatter as the neighbour sum.

  The edge list is an integer array [2, E]: row 0 holds each edge's source node, row 1 its target node.  Both
  programs take row 0, add N to the negative entries (an index counted from the end), and use the result as the
  start indices of a gather of whole rows of a feature table (`srcCol`: the gather clamps a start index into
  [0, N - 1], so edge `e` reads row `srcRow e`); and take row 1 as it stands as the indices of an accumulating
  scatter into a table of zeros (`dstCol`: an index outside [0, N - 1] is dropped, so edge `e` delivers to node `n`
  exactly when the entry is `n`: `hits e n`).  The scatter of the gathered rows into zeros is then, entry by entry,
  the neighbour sum of the table.
-/
import Idealize.ShloMosaic.Lib.ValueIdx
import Idealize.ShloMosaic.Lib.Pipeline.Value
import proofs.«134208_j34832184770974_2_alg».proof.Proof.LibEdgeIndex
import proofs.«134208_j34832184770974_2_alg».proof.Proof.Spec

noncomputable section

namespace Cert.Gin

open Idealize.ShloMosaic Idealize.ShloMosaic.ValueIdx Cert.EdgeIndex

/-- Row `k` of the edge list as a vector of length E. -/
def edgeRow (off : Fin 2 → ℕ) (h : (⟨2, ![2, 1250000]⟩ : Shape).Slices off ⟨2, ![1, 1250000]⟩)
    (ei : IVec ⟨2, ![2, 1250000]⟩ 32) : IVec ⟨1, ![1250000]⟩ 32 :=
  shapeCast ⟨1, ![1250000]⟩ (extractStridedSlice ⟨2, ![1, 1250000]⟩ off ei h) (by decide)

/-- The gather's start indices: the source row, negative entries counted from the end, as a column. -/
def srcCol (ei : IVec ⟨2, ![2, 1250000]⟩ 32) : IVec ⟨2, ![1250000, 1]⟩ 32 :=
  broadcastInDim ⟨2, ![1250000, 1]⟩ ![0] (by decide)
    (select (cmpi .slt (edgeRow ![0, 0] (by decide) ei) (broadcastInDim ⟨1, ![1250000]⟩ ![] (by decide) (constantI ⟨0, ![]⟩ 32 0#32)))
      (addi (edgeRow ![0, 0] (by decide) ei) (broadcastInDim ⟨1, ![1250000]⟩ ![] (by decide) (constantI ⟨0, ![]⟩ 32 100000#32)))
      (edgeRow ![0, 0] (by decide) ei))

/-- The scatter's indices: the target row as a column. -/
def dstCol (ei : IVec ⟨2, ![2, 1250000]⟩ 32) : IVec ⟨2, ![1250000, 1]⟩ 32 :=
  broadcastInDim ⟨2, ![1250000, 1]⟩ ![0] (by decide) (edgeRow ![1, 0] (by decide) ei)

/-- The node whose features edge `e` reads. -/
def srcRow (ei : IVec ⟨2, ![2, 1250000]⟩ 32) : Fin 1250000 → Fin 100000 := rowOf (by decide) (srcCol ei)

/-- Edge `e` delivers to node `n`. -/
def hits (ei : IVec ⟨2, ![2, 1250000]⟩ 32) (e : Fin 1250000) (n : Fin 100000) : Prop := lands (dstCol ei) e n

instance (ei : IVec ⟨2, ![2, 1250000]⟩ 32) (e : Fin 1250000) (n : Fin 100000) : Decidable (hits ei e n) := by
  unfold hits; infer_instance

/-- A gather of whole rows through an index column, scattered with addition through another index column into a table
    of zeros, is the neighbour sum: at `(n, j)` the sum over the edges delivering to `n` of the table at the edge's
    source row, column `j`. -/
theorem scatter_gather_apply {D : ℕ}
    (wfg : GatherDims.WF ⟨2, ![100000, D]⟩ ⟨2, ![1250000, 1]⟩ ⟨2, ![1250000, D]⟩ [1] [0] [] [0] [] 1 ![1, D])
    (wfs : ScatterDims.WF ⟨2, ![100000, D]⟩ ⟨2, ![1250000, 1]⟩ ⟨2, ![1250000, D]⟩ [1] [0] [0] 1)
    (hb : (⟨0, ![]⟩ : Shape).BroadcastsInDim ⟨2, ![100000, D]⟩ (![] : Fin 0 → Fin 2))
    (X : FVec Ideal ⟨2, ![100000, D]⟩ .f32) (src dst : IVec ⟨2, ![1250000, 1]⟩ 32) (n : Fin 100000) (j : Fin D) :
    Host.scatterAdd (F := Ideal) (rowScatter 100000 D 1250000 wfs)
        (broadcastInDim ⟨2, ![100000, D]⟩ ![] hb (constant (F := Ideal) ⟨0, ![]⟩ .f32 0x00000000#32)) dst
        (Host.gather (rowGather 100000 D 1250000 wfg) X src) (ix2 n j)
      = agg (rowOf (by decide) src) (lands dst) (fun n j => X (ix2 n j)) n j := by
  rw [rowScatterAdd_apply]
  have h0 : broadcastInDim ⟨2, ![100000, D]⟩ ![] hb (constant (F := Ideal) ⟨0, ![]⟩ .f32 0x00000000#32) (ix2 n j) = 0 :=
    (broadcastInDim_apply _ hb _ (ix2 n j) ix0 (fun a => a.elim0)).trans Ideal.ofBits_zero_f32
  rw [h0, zero_add]
  unfold agg
  refine Finset.sum_congr rfl fun e _ => ?_
  rw [rowGather_apply (by decide : 0 < 100000)]

end Cert.Gin

end
-- ==== Proof.RefBridge.lean ====
/-
  The reference program, read one operation at a time, computes the specification's function of its arguments.

  Its edge-list arithmetic is the two index columns of the neighbour sum; each gather followed by an accumulating
  scatter into zeros is a neighbour sum; each dot product is the matrix product's sum at an entry; a bias is a row
  vector repeated down the rows; the rectifier is the maximum with the zero word's value.  The row maximum of the
  log-softmax is a fold of max from the word of minus infinity, and the further maximum with that same word changes
  nothing, the fold already being at least its starting value; the row sum starts from the zero word's value, zero.
-/
import proofs.«134208_j34832184770974_2_alg».proof.Proof.RefReadP
import proofs.«134208_j34832184770974_2_alg».proof.Proof.Agg
import Idealize.ShloMosaic.Lib.ValueIdx
import Idealize.ShloMosaic.Lib.Pipeline.Value
import Idealize.ShloMosaic.PureOps.Ideal.Laws

noncomputable section

namespace Cert.Gin.Ref

open Cert.ReferenceIdeal Cert.ReferenceIdeal.ReadP Idealize.ShloMosaic Idealize.ShloMosaic.ValueIdx

/-- The contents of a float array of shape s at the ideal values. -/
abbrev FT (s : Shape) : Type := (⟨s, .f32⟩ : BufTy).Contents (Elt Ideal)
/-- The contents of a 32-bit integer array of shape s. -/
abbrev IT (s : Shape) : Type := (⟨s, .i32⟩ : BufTy).Contents (Elt Ideal)

local notation "zw" => Ideal.ofBits FTy.f32 0x00000000#32
local notation "ninfw" => Ideal.ofBits FTy.f32 0xFF800000#32

/-- Two rank-2 indices with the same coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

variable (x0 : FT S100000x64) (x1 : IT S2x1250000) (x2 : FT S64x16) (x3 : FT S16) (x4 : FT S16x16) (x5 : FT S16)
  (x6 : FT S16x16) (x7 : FT S16) (x8 : FT S16x7) (x9 : FT S7)

/-! ## The edge list's two index columns -/

theorem v9_eq : val_main_v9 (F := Ideal) x1 = Cert.Gin.srcCol x1 := rfl
theorem v31_eq : val_main_v31 (F := Ideal) x1 = Cert.Gin.srcCol x1 := rfl
theorem v12_eq : val_main_v12 (F := Ideal) x1 = Cert.Gin.dstCol x1 := rfl
theorem v34_eq : val_main_v34 (F := Ideal) x1 = Cert.Gin.dstCol x1 := rfl

/-! ## The two neighbour sums -/

/-- The first gather-then-scatter is the neighbour sum of the input table. -/
theorem v13_at (n : Fin 100000) (k : Fin 64) :
    val_main_v13 (F := Ideal) x0 x1 (ix2 n k)
      = Cert.Gin.agg (Cert.Gin.srcRow x1) (Cert.Gin.hits x1) (fun n k => x0 (ix2 n k)) n k := by
  unfold val_main_v13 val_main_v10
  rw [v9_eq, v12_eq]
  exact Cert.Gin.scatter_gather_apply Gen.gather_S100000x64_S1250000x1_S1250000x64_1_0_n_n_0_1_164_wf
    Gen.scatter_S100000x64_S1250000x1_S1250000x64_1_0_0_1_wf Gen.bcast_S_S100000x64 x0 (Cert.Gin.srcCol x1) (Cert.Gin.dstCol x1) n k

/-- The second gather-then-scatter is the neighbour sum of the hidden table. -/
theorem v35_at (n : Fin 100000) (l : Fin 16) :
    val_main_v35 (F := Ideal) x0 x1 x2 x3 x4 x5 (ix2 n l)
      = Cert.Gin.agg (Cert.Gin.srcRow x1) (Cert.Gin.hits x1) (fun n l => val_main_v25 (F := Ideal) x0 x1 x2 x3 x4 x5 (ix2 n l)) n l := by
  unfold val_main_v35 val_main_v32
  rw [v31_eq, v34_eq]
  generalize val_main_v25 (F := Ideal) x0 x1 x2 x3 x4 x5 = H
  exact Cert.Gin.scatter_gather_apply Gen.gather_S100000x16_S1250000x1_S1250000x16_1_0_n_n_0_1_116_wf
    Gen.scatter_S100000x16_S1250000x1_S1250000x16_1_0_0_1_wf Gen.bcast_S_S100000x16 H (Cert.Gin.srcCol x1) (Cert.Gin.dstCol x1) n l

/-! ## Biases and the rectifier's floor -/

theorem v17_at (n : Fin 100000) (j : Fin 16) : val_main_v17 (F := Ideal) x3 (ix2 n j) = x3 (ix1 j) :=
  (val_main_v17_apply x3 _).trans ((val_main_v16_apply x3 _).trans (congrArg x3 (by idx1)))
theorem v22_at (n : Fin 100000) (j : Fin 16) : val_main_v22 (F := Ideal) x5 (ix2 n j) = x5 (ix1 j) :=
  (val_main_v22_apply x5 _).trans ((val_main_v21_apply x5 _).trans (congrArg x5 (by idx1)))
theorem v39_at (n : Fin 100000) (j : Fin 16) : val_main_v39 (F := Ideal) x7 (ix2 n j) = x7 (ix1 j) :=
  (val_main_v39_apply x7 _).trans ((val_main_v38_apply x7 _).trans (congrArg x7 (by idx1)))
theorem v44_at (n : Fin 100000) (c : Fin 7) : val_main_v44 (F := Ideal) x9 (ix2 n c) = x9 (ix1 c) :=
  (val_main_v44_apply x9 _).trans ((val_main_v43_apply x9 _).trans (congrArg x9 (by idx1)))

theorem relu0 (i : S100000x16.Idx) : val_main_call0_v0 (F := Ideal) i = zw := val_main_call0_v0_apply i
theorem relu1 (i : S100000x16.Idx) : val_main_call1_v0 (F := Ideal) i = zw := val_main_call1_v0_apply i
theorem relu2 (i : S100000x16.Idx) : val_main_call2_v0 (F := Ideal) i = zw := val_main_call2_v0_apply i
theorem relu3 (i : S100000x16.Idx) : val_main_call3_v0 (F := Ideal) i = zw := val_main_call3_v0_apply i

/-! ## The element-wise stages, written with the extended reals' own operations -/

theorem v14_rd (i : S100000x64.Idx) :
    val_main_v14 (F := Ideal) x0 x1 i = x0 i + val_main_v13 (F := Ideal) x0 x1 i := rfl
theorem v18_rd (i : S100000x16.Idx) :
    val_main_v18 (F := Ideal) x0 x1 x2 x3 i = val_main_v15 (F := Ideal) x0 x1 x2 i + val_main_v17 (F := Ideal) x3 i := rfl
theorem v19_rd (i : S100000x16.Idx) :
    val_main_v19 (F := Ideal) x0 x1 x2 x3 i = max (val_main_v18 (F := Ideal) x0 x1 x2 x3 i) (val_main_call0_v0 (F := Ideal) i) := rfl
theorem v23_rd (i : S100000x16.Idx) :
    val_main_v23 (F := Ideal) x0 x1 x2 x3 x4 x5 i = val_main_v20 (F := Ideal) x0 x1 x2 x3 x4 i + val_main_v22 (F := Ideal) x5 i := rfl
theorem v24_rd (i : S100000x16.Idx) :
    val_main_v24 (F := Ideal) x0 x1 x2 x3 x4 x5 i = max (val_main_v23 (F := Ideal) x0 x1 x2 x3 x4 x5 i) (val_main_call1_v0 (F := Ideal) i) := rfl
theorem v25_rd (i : S100000x16.Idx) :
    val_main_v25 (F := Ideal) x0 x1 x2 x3 x4 x5 i = max (val_main_v24 (F := Ideal) x0 x1 x2 x3 x4 x5 i) (val_main_call2_v0 (F := Ideal) i) := rfl
theorem v36_rd (i : S100000x16.Idx) :
    val_main_v36 (F := Ideal) x0 x1 x2 x3 x4 x5 i = val_main_v25 (F := Ideal) x0 x1 x2 x3 x4 x5 i + val_main_v35 (F := Ideal) x0 x1 x2 x3 x4 x5 i := rfl
theorem v40_rd (i : S100000x16.Idx) :
    val_main_v40 (F := Ideal) x0 x1 x2 x3 x4 x5 x6 x7 i = val_main_v37 (F := Ideal) x0 x1 x2 x3 x4 x5 x6 i + val_main_v39 (F := Ideal) x7 i := rfl
theorem v41_rd (i : S100000x16.Idx) :
    val_main_v41 (F := Ideal) x0 x1 x2 x3 x4 x5 x6 x7 i = max (val_main_v40 (F := Ideal) x0 x1 x2 x3 x4 x5 x6 x7 i) (val_main_call3_v0 (F := Ideal) i) := rfl
theorem v45_rd (i : S100000x7.Idx) :
    val_main_v45 (F := Ideal) x0 x1 x2 x3 x4 x5 x6 x7 x8 x9 i = val_main_v42 (F := Ideal) x0 x1 x2 x3 x4 x5 x6 x7 x8 i + val_main_v44 (F := Ideal) x9 i := rfl

/-! ## The layers -/

/-- The first layer before its rectifier. -/
theorem v18_at (n : Fin 100000) (j : Fin 16) :
    val_main_v18 (F := Ideal) x0 x1 x2 x3 (ix2 n j)
      = Cert.Gin.lin1R (Cert.Gin.srcRow x1) (Cert.Gin.hits x1) (fun n k => x0 (ix2 n k)) (fun k j => x2 (ix2 k j)) (fun j => x3 (ix1 j)) n j := by
  unfold Cert.Gin.lin1R Cert.Gin.mm
  rw [v18_rd, val_main_v15_apply, v17_at]
  refine congrArg (· + x3 (ix1 j)) (Finset.sum_congr rfl fun k _ => ?_)
  rw [show lidx_main_v15 (ix2 n j) k = ix2 n k by idx2, show ridx_main_v15 (ix2 n j) k = ix2 k j by idx2, v14_rd, v13_at]

/-- The hidden table from the first layer's linear part. -/
theorem v25_at (n : Fin 100000) (j : Fin 16) :
    val_main_v25 (F := Ideal) x0 x1 x2 x3 x4 x5 (ix2 n j)
      = Cert.Gin.hidden zw (fun n k => val_main_v18 (F := Ideal) x0 x1 x2 x3 (ix2 n k)) (fun k j => x4 (ix2 k j)) (fun j => x5 (ix1 j)) n j := by
  unfold Cert.Gin.hidden Cert.Gin.mm
  rw [v25_rd, v24_rd, v23_rd, relu2, relu1, val_main_v20_apply, v22_at]
  refine congrArg (fun s => max (max (s + x5 (ix1 j)) zw) zw) (Finset.sum_congr rfl fun k _ => ?_)
  rw [show lidx_main_v20 (ix2 n j) k = ix2 n k by idx2, show ridx_main_v20 (ix2 n j) k = ix2 k j by idx2, v19_rd, relu0]

/-- The hidden table plus its neighbour sum. -/
theorem v36_at (n : Fin 100000) (l : Fin 16) :
    val_main_v36 (F := Ideal) x0 x1 x2 x3 x4 x5 (ix2 n l)
      = val_main_v25 (F := Ideal) x0 x1 x2 x3 x4 x5 (ix2 n l)
        + Cert.Gin.agg (Cert.Gin.srcRow x1) (Cert.Gin.hits x1) (fun n l => val_main_v25 (F := Ideal) x0 x1 x2 x3 x4 x5 (ix2 n l)) n l := by
  rw [v36_rd, v35_at]

/-- The logits from the summed table. -/
theorem v45_at (n : Fin 100000) (c : Fin 7) :
    val_main_v45 (F := Ideal) x0 x1 x2 x3 x4 x5 x6 x7 x8 x9 (ix2 n c)
      = Cert.Gin.logitsOf zw (fun n l => val_main_v36 (F := Ideal) x0 x1 x2 x3 x4 x5 (ix2 n l)) (fun k j => x6 (ix2 k j)) (fun j => x7 (ix1 j))
          (fun k c => x8 (ix2 k c)) (fun c => x9 (ix1 c)) n c := by
  unfold Cert.Gin.logitsOf Cert.Gin.mm
  rw [v45_rd, val_main_v42_apply, v44_at]
  refine congrArg (· + x9 (ix1 c)) (Finset.sum_congr rfl fun k _ => ?_)
  rw [show lidx_main_v42 (ix2 n c) k = ix2 n k by idx2, show ridx_main_v42 (ix2 n c) k = ix2 k c by idx2, v41_rd, relu3, v40_rd,
    val_main_v37_apply, v39_at]
  refine congrArg (fun s => max (s + x7 (ix1 k)) zw * x8 (ix2 k c)) (Finset.sum_congr rfl fun l _ => ?_)
  rw [show lidx_main_v37 (ix2 n k) l = ix2 n l by idx2, show ridx_main_v37 (ix2 n k) l = ix2 l k by idx2]

/-! ## The row-wise log-softmax -/

theorem c4v1_at (i : S100000.Idx) : val_main_call4_v1 (F := Ideal) i = ninfw := val_main_call4_v1_apply i

theorem c4v2_rd (i : S100000.Idx) :
    val_main_call4_v2 (F := Ideal) x0 x1 x2 x3 x4 x5 x6 x7 x8 x9 i
      = max (val_main_call4_v1 (F := Ideal) i) (val_main_call4_v0 (F := Ideal) x0 x1 x2 x3 x4 x5 x6 x7 x8 x9 i) :=
  (val_main_call4_v2_apply (F := Ideal) x0 x1 x2 x3 x4 x5 x6 x7 x8 x9 i).trans (Ideal.maximumf_def _ _)
theorem c4v5_rd (i : S100000x7.Idx) :
    val_main_call4_v5 (F := Ideal) x0 x1 x2 x3 x4 x5 x6 x7 x8 x9 i
      = val_main_v45 (F := Ideal) x0 x1 x2 x3 x4 x5 x6 x7 x8 x9 i - val_main_call4_v4 (F := Ideal) x0 x1 x2 x3 x4 x5 x6 x7 x8 x9 i := rfl
theorem c4v6_rd (i : S100000x7.Idx) :
    val_main_call4_v6 (F := Ideal) x0 x1 x2 x3 x4 x5 x6 x7 x8 x9 i
      = Ideal.exp (val_main_call4_v5 (F := Ideal) x0 x1 x2 x3 x4 x5 x6 x7 x8 x9 i) :=
  (val_main_call4_v6_apply (F := Ideal) x0 x1 x2 x3 x4 x5 x6 x7 x8 x9 i).trans (Ideal.hostUnary_exp_def _)
theorem c4v9_rd (i : S100000x1.Idx) :
    val_main_call4_v9 (F := Ideal) x0 x1 x2 x3 x4 x5 x6 x7 x8 x9 i
      = Ideal.log (val_main_call4_v8 (F := Ideal) x0 x1 x2 x3 x4 x5 x6 x7 x8 x9 i) :=
  (val_main_call4_v9_apply (F := Ideal) x0 x1 x2 x3 x4 x5 x6 x7 x8 x9 i).trans (Ideal.hostUnary_log_def _)
theorem v46_rd (i : S100000x7.Idx) :
    val_main_v46 (F := Ideal) x0 x1 x2 x3 x4 x5 x6 x7 x8 x9 i
      = val_main_call4_v5 (F := Ideal) x0 x1 x2 x3 x4 x5 x6 x7 x8 x9 i - val_main_call4_v10 (F := Ideal) x0 x1 x2 x3 x4 x5 x6 x7 x8 x9 i := rfl

/-- Row n's reduced index with column k put back is (n, k). -/
theorem lift2 (h : S100000x7.Reduces [1] S100000) (n : Fin 100000) (k : Fin (S100000x7.size 1)) :
    h.lift (ix1 n) k = ix2 n (⟨k.val, k.isLt⟩ : Fin 7) := by
  funext c; apply Fin.ext
  fin_cases c <;> rfl

/-- The host's reduce with a maximum body over the columns, from a scalar constant: the fold of max over the row's
    entries from that constant's value. -/
theorem hostRowMax2 (x : FVec Ideal S100000x7 .f32) (w : BitVec 32)
    (r' : S100000x7.ReducesTo [1] S100000) (r : S100000x7.Reduces [1] S100000) (hu : 0 < S_.numel) (n : Fin 100000) :
    Host.reduce FloatOps.maximumf x (constant (F := Ideal) S_ .f32 w) r' hu (ix1 n)
      = (Finset.univ : Finset (Fin 7)).fold max (Ideal.ofBits .f32 w) (fun c => x (ix2 n c)) := by
  rw [Host.reduce_eq_fold_single FloatOps.maximumf x _ r' r hu]
  have hf : (x ∘ r.lift (ix1 n)) = fun c : Fin 7 => x (ix2 n c) := funext fun k => congrArg x (lift2 r n k)
  exact congrArg (fun f => Finset.fold max (Ideal.ofBits .f32 w) f (Finset.univ : Finset (Fin 7))) hf

theorem reduces7 : S100000x7.Reduces [1] S100000 := by decide

/-- The host's row maximum of the logits is the fold of max over the row from the word of minus infinity. -/
theorem c4v0_at (n : Fin 100000) :
    val_main_call4_v0 (F := Ideal) x0 x1 x2 x3 x4 x5 x6 x7 x8 x9 (ix1 n)
      = Cert.Gin.rowMax ninfw (fun n c => val_main_v45 (F := Ideal) x0 x1 x2 x3 x4 x5 x6 x7 x8 x9 (ix2 n c)) n := by
  unfold val_main_call4_v0 Cert.Gin.rowMax
  generalize val_main_v45 (F := Ideal) x0 x1 x2 x3 x4 x5 x6 x7 x8 x9 = Z
  exact hostRowMax2 Z 0xFF800000#32 Gen.reducesTo_S100000x7_S100000_d1 reduces7 Gen.h_S_ n

/-- The maximum the rows are shifted by: the further maximum with the fold's own starting value changes nothing. -/
theorem c4v4_at (n : Fin 100000) (c : Fin 7) :
    val_main_call4_v4 (F := Ideal) x0 x1 x2 x3 x4 x5 x6 x7 x8 x9 (ix2 n c)
      = Cert.Gin.rowMax ninfw (fun n c => val_main_v45 (F := Ideal) x0 x1 x2 x3 x4 x5 x6 x7 x8 x9 (ix2 n c)) n := by
  rw [val_main_call4_v4_apply, val_main_call4_v3_apply,
    show idx_main_call4_v3 (idx_main_call4_v4 (ix2 n c)) = ix1 n by idx1, c4v2_rd, c4v1_at, c4v0_at]
  unfold Cert.Gin.rowMax
  exact max_eq_right ((Finset.le_fold_max _).mpr (Or.inl le_rfl))

theorem c4v5_at (n : Fin 100000) (c : Fin 7) :
    val_main_call4_v5 (F := Ideal) x0 x1 x2 x3 x4 x5 x6 x7 x8 x9 (ix2 n c)
      = val_main_v45 (F := Ideal) x0 x1 x2 x3 x4 x5 x6 x7 x8 x9 (ix2 n c)
        - Cert.Gin.rowMax ninfw (fun n c => val_main_v45 (F := Ideal) x0 x1 x2 x3 x4 x5 x6 x7 x8 x9 (ix2 n c)) n := by
  rw [c4v5_rd, c4v4_at]

/-- The row sum of the shifted row's exponentials; it starts from the zero word's value, zero. -/
theorem c4v7_at (n : Fin 100000) :
    val_main_call4_v7 (F := Ideal) x0 x1 x2 x3 x4 x5 x6 x7 x8 x9 (ix1 n)
      = ∑ c' : Fin 7, Ideal.exp (val_main_v45 (F := Ideal) x0 x1 x2 x3 x4 x5 x6 x7 x8 x9 (ix2 n c')
          - Cert.Gin.rowMax ninfw (fun n c => val_main_v45 (F := Ideal) x0 x1 x2 x3 x4 x5 x6 x7 x8 x9 (ix2 n c)) n) := by
  rw [val_main_call4_v7_apply]
  refine (congrArg (· + _) (Ideal.ofBits_zero_f32 : val_main_call4_cst_1 (F := Ideal) (Shape.Idx.first Gen.h_S_) = 0)).trans ?_
  rw [zero_add]
  refine Finset.sum_congr rfl fun k _ => ?_
  rw [show idx_main_call4_v7 (ix1 n) k = ix2 n k by idx2, c4v6_rd, c4v5_at]

theorem c4v10_at (n : Fin 100000) (c : Fin 7) :
    val_main_call4_v10 (F := Ideal) x0 x1 x2 x3 x4 x5 x6 x7 x8 x9 (ix2 n c)
      = Ideal.log (∑ c' : Fin 7, Ideal.exp (val_main_v45 (F := Ideal) x0 x1 x2 x3 x4 x5 x6 x7 x8 x9 (ix2 n c')
          - Cert.Gin.rowMax ninfw (fun n c => val_main_v45 (F := Ideal) x0 x1 x2 x3 x4 x5 x6 x7 x8 x9 (ix2 n c)) n)) := by
  rw [val_main_call4_v10_apply, c4v9_rd, val_main_call4_v8_apply,
    show idx_main_call4_v8 (idx_main_call4_v10 (ix2 n c)) = ix1 n by idx1, c4v7_at]

/-- The result is the log-softmax of the logits. -/
theorem v46_at (n : Fin 100000) (c : Fin 7) :
    val_main_v46 (F := Ideal) x0 x1 x2 x3 x4 x5 x6 x7 x8 x9 (ix2 n c)
      = Cert.Gin.logSoftmax ninfw (fun n c => val_main_v45 (F := Ideal) x0 x1 x2 x3 x4 x5 x6 x7 x8 x9 (ix2 n c)) n c := by
  unfold Cert.Gin.logSoftmax
  rw [v46_rd, c4v5_at, c4v10_at]

/-! ## The reference is the specification -/

/-- The reference's result at row n, column c. -/
theorem ref_at (n : Fin 100000) (c : Fin 7) :
    val_main_v46 (F := Ideal) x0 x1 x2 x3 x4 x5 x6 x7 x8 x9 (ix2 n c)
      = Cert.Gin.tail zw ninfw (Cert.Gin.srcRow x1) (Cert.Gin.hits x1)
          (Cert.Gin.lin1R (Cert.Gin.srcRow x1) (Cert.Gin.hits x1) (fun n k => x0 (ix2 n k)) (fun k j => x2 (ix2 k j)) (fun j => x3 (ix1 j)))
          (fun k j => x4 (ix2 k j)) (fun j => x5 (ix1 j)) (fun k j => x6 (ix2 k j)) (fun j => x7 (ix1 j)) (fun k j => x8 (ix2 k j)) (fun j => x9 (ix1 j)) n c := by
  have hL : (fun n k => val_main_v18 (F := Ideal) x0 x1 x2 x3 (ix2 n k))
      = Cert.Gin.lin1R (Cert.Gin.srcRow x1) (Cert.Gin.hits x1) (fun n k => x0 (ix2 n k)) (fun k j => x2 (ix2 k j)) (fun j => x3 (ix1 j)) :=
    funext fun n => funext fun k => v18_at x0 x1 x2 x3 n k
  have hH : (fun n j => val_main_v25 (F := Ideal) x0 x1 x2 x3 x4 x5 (ix2 n j))
      = Cert.Gin.hidden zw (Cert.Gin.lin1R (Cert.Gin.srcRow x1) (Cert.Gin.hits x1) (fun n k => x0 (ix2 n k)) (fun k j => x2 (ix2 k j)) (fun j => x3 (ix1 j)))
          (fun k j => x4 (ix2 k j)) (fun j => x5 (ix1 j)) :=
    funext fun n => funext fun j => (v25_at x0 x1 x2 x3 x4 x5 n j).trans
      (congrArg (fun L => Cert.Gin.hidden zw L (fun k j => x4 (ix2 k j)) (fun j => x5 (ix1 j)) n j) hL)
  have hS : (fun n l => val_main_v36 (F := Ideal) x0 x1 x2 x3 x4 x5 (ix2 n l))
      = fun n l => Cert.Gin.hidden zw (Cert.Gin.lin1R (Cert.Gin.srcRow x1) (Cert.Gin.hits x1) (fun n k => x0 (ix2 n k)) (fun k j => x2 (ix2 k j)) (fun j => x3 (ix1 j)))
            (fun k j => x4 (ix2 k j)) (fun j => x5 (ix1 j)) n l
          + Cert.Gin.agg (Cert.Gin.srcRow x1) (Cert.Gin.hits x1)
            (Cert.Gin.hidden zw (Cert.Gin.lin1R (Cert.Gin.srcRow x1) (Cert.Gin.hits x1) (fun n k => x0 (ix2 n k)) (fun k j => x2 (ix2 k j)) (fun j => x3 (ix1 j)))
              (fun k j => x4 (ix2 k j)) (fun j => x5 (ix1 j))) n l :=
    funext fun n => funext fun l => (v36_at x0 x1 x2 x3 x4 x5 n l).trans
      (congrArg (fun H : Fin 100000 → Fin 16 → EReal => H n l + Cert.Gin.agg (Cert.Gin.srcRow x1) (Cert.Gin.hits x1) H n l) hH)
  have hZ : (fun n c => val_main_v45 (F := Ideal) x0 x1 x2 x3 x4 x5 x6 x7 x8 x9 (ix2 n c))
      = Cert.Gin.logitsOf zw (fun n l => val_main_v36 (F := Ideal) x0 x1 x2 x3 x4 x5 (ix2 n l)) (fun k j => x6 (ix2 k j)) (fun j => x7 (ix1 j))
          (fun k c => x8 (ix2 k c)) (fun c => x9 (ix1 c)) :=
    funext fun n => funext fun c => v45_at x0 x1 x2 x3 x4 x5 x6 x7 x8 x9 n c
  unfold Cert.Gin.tail Cert.Gin.logits
  rw [v46_at, hZ, hS]

open Cert.ReferenceIdeal Cert.ReferenceIdeal.ReadP Idealize.ShloMosaic Idealize.ShloMosaic.ValueIdx in
theorem ref_eq (x0 : (⟨S100000x64, .f32⟩ : BufTy).Contents (Elt Ideal)) (x1 : (⟨S2x1250000, .i32⟩ : BufTy).Contents (Elt Ideal)) (x2 : (⟨S64x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x16, .f32⟩ : BufTy).Contents (Elt Ideal)) (x7 : (⟨S16, .f32⟩ : BufTy).Contents (Elt Ideal)) (x8 : (⟨S16x7, .f32⟩ : BufTy).Contents (Elt Ideal)) (x9 : (⟨S7, .f32⟩ : BufTy).Contents (Elt Ideal)) :
    val_main_v46 (F := Ideal) x0 x1 x2 x3 x4 x5 x6 x7 x8 x9
      = fun i => Cert.Gin.tail (Ideal.ofBits .f32 0x00000000#32) (Ideal.ofBits .f32 0xFF800000#32) (Cert.Gin.srcRow x1) (Cert.Gin.hits x1)
          (Cert.Gin.lin1R (Cert.Gin.srcRow x1) (Cert.Gin.hits x1) (fun n k => x0 (ix2 n k)) (fun k j => x2 (ix2 k j)) (fun j => x3 (ix1 j)))
          (fun k j => x4 (ix2 k j)) (fun j => x5 (ix1 j)) (fun k j => x6 (ix2 k j)) (fun j => x7 (ix1 j)) (fun k j => x8 (ix2 k j)) (fun j => x9 (ix1 j)) (i 0) (i 1) :=
  funext fun i => (congrArg (val_main_v46 (F := Ideal) x0 x1 x2 x3 x4 x5 x6 x7 x8 x9) (eq_ix2 i)).trans
    (ref_at x0 x1 x2 x3 x4 x5 x6 x7 x8 x9 (i 0) (i 1))

end Cert.Gin.Ref

end
-- ==== Proof.KernelRun.lean ====
/-
  The idealized kernel's run, read at its result.

  @main is six segments: three stretches of host operations and three pallas regions.  The generated frame module
  gives each segment over one thread state — every buffer that is not scoped to a region, held whole at the contents
  the previous segment leaves (`W0 … W6`) — and states the frame claim from them.  Here the same segments are launched
  once more through the library's theorem for a program of several regions, and the last thread state is read at
  EVERY unscoped buffer: in every final state each such buffer holds the last boundary's contents `W6`.  The result
  buffer is one of them, so it ends at `W6` of the result's reference; the arguments end as launched (the frame
  module's own walk back through the boundaries).
-/
import proofs.«134208_j34832184770974_2_alg».proof.Proof.Gen.KernelIdeal.Frame

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- Every weakly fair execution of @main terminates without a fault, and any property that follows from "every
    unscoped buffer of every core holds the last boundary's contents" holds of every final state. -/
theorem run_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The run with the result named: the result buffer ends at the last boundary's contents, the arguments as launched. -/
theorem run_out : θ_run defs (onTc (τ := τ) (main (F := F))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_boundary m ρ (fun s h c =>
    ⟨h c _ (mem_uc main_v30 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩)

end Cert.KernelIdeal.RunOut

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.RegionProj.lean ====
/-
  What the first region leaves in its output array: the product of the node features with the first weight matrix.

  The region walks twenty blocks of 5000 rows.  At block `t` the body reads rows `5000·t … 5000·t + 4999` of the
  features `X` [100000, 64] and the whole of `W` [64, 16], and stores their matrix product (an accumulation into a
  zero block; the rounding of the operands to a shorter format is the identity over the extended reals).  Entry
  `(p, j)` of the block is `∑ k, X (5000·t + p, k) · W (k, j)`: row `5000·t + p` of the whole product.  The twenty
  blocks tile the output, so the array ends holding the whole product.
-/
import proofs.«134208_j34832184770974_2_alg».proof.Proof.Gen.KernelIdeal.Frame
import proofs.«134208_j34832184770974_2_alg».proof.Proof.Spec
import proofs.«134208_j34832184770974_2_alg».proof.Proof.LibPlainDot
import Idealize.ShloMosaic.Lib.Pipeline.Value
import Idealize.ShloMosaic.Lib.ValueIdx

noncomputable section

namespace Cert.KernelIdeal.RegionProj

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The array the first region leaves: features times weights, entry by entry. -/
def projArr (c : Dev nD) : S100000x16.Idx → EReal := fun i =>
  Cert.Gin.mm (fun n k => (V c main_arg0 : S100000x64.Idx → EReal) (ix2 n k))
    (fun k j => (V c main_arg2 : S64x16.Idx → EReal) (ix2 k j)) (i 0) (i 1)

theorem hz : (![0, 0] : Fin 2 → Nat) = fun _ => 0 := funext fun a => by fin_cases a <;> rfl

/-- The body's stored block, entry by entry: the plain product of the two loaded blocks. -/
theorem pay (x0 : Vec Ideal S5000x64 .f32) (x1 : Vec Ideal S64x16 .f32) (p : Fin 5000) (j : Fin 16) :
    k0_pay1 x0 x1 (ix2 p j) = ∑ k : Fin 64, x0 (ix2 p k) * x1 (ix2 k j) := by
  unfold k0_pay1
  exact Cert.PlainDot.matmul_zero_apply dot_S5000x64_S64x16_S5000x16_1_0_0_1_n_n rfl none _ _ p j

/-- Where the blocks sit: the row-blocked windows at block row `t`, the weights at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 20 := lt_of_lt_of_eq t.isLt N_0

/-- Entry `(p, k)` of the feature block at `t` is entry `(5000·t + p, k)` of the array. -/
theorem emb0 (t : Fin cfg0.N) (p : Fin 5000) (k : Fin 64) :
    ((cfg0.win 0).blk t).view.emb (ix2 p k) = ix2 (⟨t.val * 5000 + p.val, by have := t_lt t; omega⟩ : Fin 100000) k := by
  funext a; apply Fin.ext
  match a with
  | ⟨0, _⟩ => show win0_0.index t (0 : Fin 2) * 5000 + 1 * p.val = t.val * 5000 + p.val; rw [(idx_facts t).1]; omega
  | ⟨1, _⟩ => show win0_0.index t (1 : Fin 2) * 64 + 1 * k.val = k.val; rw [(idx_facts t).2.1]; omega

/-- The weight block is the whole weight array. -/
theorem emb1 (t : Fin cfg0.N) (k : Fin 64) (j : Fin 16) : ((cfg0.win 1).blk t).view.emb (ix2 k j) = ix2 k j := by
  funext a; apply Fin.ext
  match a with
  | ⟨0, _⟩ => show win0_1.index t (0 : Fin 2) * 64 + 1 * k.val = k.val; rw [(idx_facts t).2.2.1]; omega
  | ⟨1, _⟩ => show win0_1.index t (1 : Fin 2) * 16 + 1 * j.val = j.val; rw [(idx_facts t).2.2.2.1]; omega

/-- Entry `(p, j)` of the output block at `t` is entry `(5000·t + p, j)` of the output array. -/
theorem emb2 (t : Fin cfg0.N) (p : Fin 5000) (j : Fin 16) :
    ((cfg0.win 2).blk t).view.emb (ix2 p j) = ix2 (⟨t.val * 5000 + p.val, by have := t_lt t; omega⟩ : Fin 100000) j := by
  funext a; apply Fin.ext
  match a with
  | ⟨0, _⟩ => show win0_2.index t (0 : Fin 2) * 5000 + 1 * p.val = t.val * 5000 + p.val; rw [(idx_facts t).2.2.2.2.1]; omega
  | ⟨1, _⟩ => show win0_2.index t (1 : Fin 2) * 16 + 1 * j.val = j.val; rw [(idx_facts t).2.2.2.2.2]; omega

/-- What block `t` writes back is block `t` of the whole product. -/
theorem flushed_eq (c : Dev nD) (t : Fin cfg0.N) :
    (dat0 (F := Ideal) V c).flushed 2 t = ((cfg0.win 2).blk t).view.read (Elt Ideal) (projArr V c) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S64x16) hz]
  funext y
  obtain ⟨p, j, rfl⟩ : ∃ (p : Fin 5000) (j : Fin 16), y = ix2 p j := ⟨y 0, y 1, eq_ix2 y⟩
  show k0_pay1 (iblk0 V c 0 t) (iblk0 V c 1 t) (ix2 p j) = projArr V c (((cfg0.win 2).blk t).view.emb (ix2 p j))
  refine (pay (iblk0 V c 0 t) (iblk0 V c 1 t) p j).trans ?_
  rw [emb2]
  unfold projArr Cert.Gin.mm
  refine Finset.sum_congr rfl fun k _ => ?_
  have e0 : iblk0 V c 0 t (ix2 p k) = (V c main_arg0 : S100000x64.Idx → EReal) (ix2 (⟨t.val * 5000 + p.val, by have := t_lt t; omega⟩ : Fin 100000) k) := by
    show (V c main_arg0 : S100000x64.Idx → EReal) (((cfg0.win 0).blk t).view.emb (ix2 p k)) = _
    rw [emb0]
  have e1 : iblk0 V c 1 t (ix2 k j) = (V c main_arg2 : S64x16.Idx → EReal) (ix2 k j) := by
    show (V c main_arg2 : S64x16.Idx → EReal) (((cfg0.win 1).blk t).view.emb (ix2 k j)) = _
    rw [emb1]
  rw [e0, e1]

/-- An index is in block `t` of the output exactly when its coordinates are in the block's ranges. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v4).slice (win0_2.rect t)).set ↔ _
  rw [View.set_slice_whole, Rect.mem_set_unit]
  exact Iff.rfl

/-- Row `r` lies in block `r / 5000`. -/
theorem cover (i : S100000x16.Idx) : ∃ t : Fin cfg0.N, (cfg0.win 2).flush t = true ∧ i ∈ ((cfg0.win 2).blk t).view.set := by
  have h0 : (i 0).val < 100000 := (i 0).isLt
  have h1 : (i 1).val < 16 := (i 1).isLt
  have hN : cfg0.N = 20 := N_0
  refine ⟨⟨(i 0).val / 5000, by omega⟩, flush0_2 _, ?_⟩
  rw [mem_blk]
  obtain ⟨-, -, -, -, e4, e5⟩ := idx_facts ⟨(i 0).val / 5000, by omega⟩
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, _⟩ (1 : Fin 2) * 16 ≤ (i 1).val ∧ (i 1).val < win0_2.index ⟨(i 0).val / 5000, _⟩ (1 : Fin 2) * 16 + 16
    rw [e5]; omega

/-- THE ARRAY after the first region: the whole product. -/
theorem arr0 (c : Dev nD) : (dat0 (F := Ideal) V c).arrAt 2 cfg0.N = projArr V c :=
  (dat0 (F := Ideal) V c).arrAt_eq_of_cover 2 (projArr V c) (fun t _ => flushed_eq V c t) cover

end Cert.KernelIdeal.RegionProj

end
-- ==== Proof.RegionHid.lean ====
/-
  What the second region leaves in its output array: the first graph layer finished and the second linear layer.

  The region walks twenty blocks of 5000 rows.  At block `t` the body reads rows `5000·t … 5000·t + 4999` of the
  projected features `P` and of their neighbour sums `A` (both [100000, 16]), the bias row `b₁` [1, 16], the weights
  `W₂` [16, 16] and the bias row `b₂` [1, 16], and stores `relu (relu (relu (P + A + b₁) · W₂ + b₂))` (the matrix product
  an accumulation into a zero block; rounding to a shorter format is the identity over the extended reals).  Each row
  of the result depends on the same row of `P` and `A` only, so block `t` of the stored values is block `t` of the
  whole-array function, and the twenty blocks tile the output.
-/
import proofs.«134208_j34832184770974_2_alg».proof.Proof.Gen.KernelIdeal.Frame
import proofs.«134208_j34832184770974_2_alg».proof.Proof.Spec
import proofs.«134208_j34832184770974_2_alg».proof.Proof.LibPlainDot
import Idealize.ShloMosaic.Lib.Pipeline.Value
import Idealize.ShloMosaic.Lib.ValueIdx
import Idealize.ShloMosaic.Lib.ValueLayout

noncomputable section

namespace Cert.KernelIdeal.RegionHid

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- An array's entry at row `i`, column `j`, as an extended real. -/
abbrev at2 {a b : ℕ} (x : (⟨2, ![a, b]⟩ : Shape).Idx → EReal) (i : Fin a) (j : Fin b) : EReal := x (ix2 i j)

/-- The array the second region leaves, entry by entry. -/
def hidArr (c : Dev nD) : S100000x16.Idx → EReal := fun i =>
  Cert.Gin.hidden (Ideal.ofBits .f32 0x00000000#32)
    (fun n k => (at2 (V c main_v4) n k + at2 (V c main_v14) n k) + at2 (V c main_v15) 0 k)
    (fun k j => at2 (V c main_arg4) k j) (fun j => at2 (V c main_v16) 0 j) (i 0) (i 1)

theorem hz : (![0, 0] : Fin 2 → Nat) = fun _ => 0 := funext fun a => by fin_cases a <;> rfl

/-- The body's stored block, entry by entry. -/
theorem pay (x0 x1 : Vec Ideal S5000x16 .f32) (x2 : Vec Ideal S1x16 .f32) (x3 : Vec Ideal S16x16 .f32) (x4 : Vec Ideal S1x16 .f32)
    (p : Fin 5000) (j : Fin 16) :
    k1_pay1 x0 x1 x2 x3 x4 (ix2 p j)
      = Cert.Gin.hidden (Ideal.ofBits .f32 0x00000000#32) (fun p k => (x0 (ix2 p k) + x1 (ix2 p k)) + x2 (ix2 0 k))
          (fun k j => x3 (ix2 k j)) (fun j => x4 (ix2 0 j)) p j := by
  unfold k1_pay1
  simp only [shapeCast_self]
  simp only [maximumf_apply, addf_apply, broadcast_apply, matmul]
  rw [Cert.PlainDot.matmul_zero_apply dot_S5000x16_S16x16_S5000x16_1_0_0_1_n_n rfl none _ _ p j, broadcastTo_1b_ab_apply]
  unfold Cert.Gin.hidden Cert.Gin.mm
  simp only [truncf_apply, maximumf_apply, addf_apply, broadcast_apply, broadcastTo_1b_ab_apply]
  rfl

/-- Where the blocks sit: the row-blocked windows at block row `t`, the others at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 := lt_of_lt_of_eq t.isLt N_1

/-- The row of the arrays that row `p` of block `t` is. -/
abbrev rowAt (t : Fin cfg1.N) (p : Fin 5000) : Fin 100000 := ⟨t.val * 5000 + p.val, by have := t_lt t; omega⟩

theorem emb0 (t : Fin cfg1.N) (p : Fin 5000) (k : Fin 16) : ((cfg1.win 0).blk t).view.emb (ix2 p k) = ix2 (rowAt t p) k := by
  funext a; apply Fin.ext
  match a with
  | ⟨0, _⟩ => show win1_0.index t (0 : Fin 2) * 5000 + 1 * p.val = t.val * 5000 + p.val; rw [(idx_facts t).1]; omega
  | ⟨1, _⟩ => show win1_0.index t (1 : Fin 2) * 16 + 1 * k.val = k.val; rw [(idx_facts t).2.1]; omega

theorem emb1 (t : Fin cfg1.N) (p : Fin 5000) (k : Fin 16) : ((cfg1.win 1).blk t).view.emb (ix2 p k) = ix2 (rowAt t p) k := by
  funext a; apply Fin.ext
  match a with
  | ⟨0, _⟩ => show win1_1.index t (0 : Fin 2) * 5000 + 1 * p.val = t.val * 5000 + p.val; rw [(idx_facts t).2.2.1]; omega
  | ⟨1, _⟩ => show win1_1.index t (1 : Fin 2) * 16 + 1 * k.val = k.val; rw [(idx_facts t).2.2.2.1]; omega

theorem emb2 (t : Fin cfg1.N) (u : Fin 1) (k : Fin 16) : ((cfg1.win 2).blk t).view.emb (ix2 u k) = ix2 u k := by
  funext a; apply Fin.ext
  match a with
  | ⟨0, _⟩ => show win1_2.index t (0 : Fin 2) * 1 + 1 * u.val = u.val; rw [(idx_facts t).2.2.2.2.1]; omega
  | ⟨1, _⟩ => show win1_2.index t (1 : Fin 2) * 16 + 1 * k.val = k.val; rw [(idx_facts t).2.2.2.2.2.1]; omega

theorem emb3 (t : Fin cfg1.N) (k : Fin 16) (j : Fin 16) : ((cfg1.win 3).blk t).view.emb (ix2 k j) = ix2 k j := by
  funext a; apply Fin.ext
  match a with
  | ⟨0, _⟩ => show win1_3.index t (0 : Fin 2) * 16 + 1 * k.val = k.val; rw [(idx_facts t).2.2.2.2.2.2.1]; omega
  | ⟨1, _⟩ => show win1_3.index t (1 : Fin 2) * 16 + 1 * j.val = j.val; rw [(idx_facts t).2.2.2.2.2.2.2.1]; omega

theorem emb4 (t : Fin cfg1.N) (u : Fin 1) (k : Fin 16) : ((cfg1.win 4).blk t).view.emb (ix2 u k) = ix2 u k := by
  funext a; apply Fin.ext
  match a with
  | ⟨0, _⟩ => show win1_4.index t (0 : Fin 2) * 1 + 1 * u.val = u.val; rw [(idx_facts t).2.2.2.2.2.2.2.2.1]; omega
  | ⟨1, _⟩ => show win1_4.index t (1 : Fin 2) * 16 + 1 * k.val = k.val; rw [(idx_facts t).2.2.2.2.2.2.2.2.2.1]; omega

theorem emb5 (t : Fin cfg1.N) (p : Fin 5000) (j : Fin 16) : ((cfg1.win 5).blk t).view.emb (ix2 p j) = ix2 (rowAt t p) j := by
  funext a; apply Fin.ext
  match a with
  | ⟨0, _⟩ => show win1_5.index t (0 : Fin 2) * 5000 + 1 * p.val = t.val * 5000 + p.val; rw [(idx_facts t).2.2.2.2.2.2.2.2.2.2.1]; omega
  | ⟨1, _⟩ => show win1_5.index t (1 : Fin 2) * 16 + 1 * j.val = j.val; rw [(idx_facts t).2.2.2.2.2.2.2.2.2.2.2]; omega

/-- The blocks the body loads, entry by entry, as entries of the arrays. -/
theorem blk0 (c : Dev nD) (t : Fin cfg1.N) (p : Fin 5000) (k : Fin 16) :
    iblk1 V c 0 t (ix2 p k) = (V c main_v4 : S100000x16.Idx → EReal) (ix2 (rowAt t p) k) := by
  show (V c main_v4 : S100000x16.Idx → EReal) (((cfg1.win 0).blk t).view.emb (ix2 p k)) = _
  rw [emb0]
theorem blk1 (c : Dev nD) (t : Fin cfg1.N) (p : Fin 5000) (k : Fin 16) :
    iblk1 V c 1 t (ix2 p k) = (V c main_v14 : S100000x16.Idx → EReal) (ix2 (rowAt t p) k) := by
  show (V c main_v14 : S100000x16.Idx → EReal) (((cfg1.win 1).blk t).view.emb (ix2 p k)) = _
  rw [emb1]
theorem blk2 (c : Dev nD) (t : Fin cfg1.N) (u : Fin 1) (k : Fin 16) :
    iblk1 V c 2 t (ix2 u k) = (V c main_v15 : S1x16.Idx → EReal) (ix2 u k) := by
  show (V c main_v15 : S1x16.Idx → EReal) (((cfg1.win 2).blk t).view.emb (ix2 u k)) = _
  rw [emb2]
theorem blk3 (c : Dev nD) (t : Fin cfg1.N) (k j : Fin 16) :
    iblk1 V c 3 t (ix2 k j) = (V c main_arg4 : S16x16.Idx → EReal) (ix2 k j) := by
  show (V c main_arg4 : S16x16.Idx → EReal) (((cfg1.win 3).blk t).view.emb (ix2 k j)) = _
  rw [emb3]
theorem blk4 (c : Dev nD) (t : Fin cfg1.N) (u : Fin 1) (k : Fin 16) :
    iblk1 V c 4 t (ix2 u k) = (V c main_v16 : S1x16.Idx → EReal) (ix2 u k) := by
  show (V c main_v16 : S1x16.Idx → EReal) (((cfg1.win 4).blk t).view.emb (ix2 u k)) = _
  rw [emb4]

/-- What block `t` writes back is block `t` of the whole-array function. -/
theorem flushed_eq (c : Dev nD) (t : Fin cfg1.N) :
    (dat1 (F := Ideal) V c).flushed 5 t = ((cfg1.win 5).blk t).view.read (Elt Ideal) (hidArr V c) := by
  show (cfg1.win 5).cut (grid1.coords t) ((dat1 (F := Ideal) V c).after 5 t) = _
  rw [after1_5]
  unfold out1_5
  rw [View.canon_unit_zero hz]
  simp only [View.ld_unit_zero (S := S5000x16) hz, View.ld_unit_zero (S := S1x16) hz, View.ld_unit_zero (S := S16x16) hz]
  funext y
  obtain ⟨p, j, rfl⟩ : ∃ (p : Fin 5000) (j : Fin 16), y = ix2 p j := ⟨y 0, y 1, eq_ix2 y⟩
  show k1_pay1 (iblk1 V c 0 t) (iblk1 V c 1 t) (iblk1 V c 2 t) (iblk1 V c 3 t) (iblk1 V c 4 t) (ix2 p j)
    = hidArr V c (((cfg1.win 5).blk t).view.emb (ix2 p j))
  refine (pay (iblk1 V c 0 t) (iblk1 V c 1 t) (iblk1 V c 2 t) (iblk1 V c 3 t) (iblk1 V c 4 t) p j).trans ?_
  rw [emb5]
  unfold hidArr Cert.Gin.hidden Cert.Gin.mm
  simp only [blk0 V c t, blk1 V c t, blk2 V c t, blk3 V c t, blk4 V c t]

/-- An index is in block `t` of the output exactly when its coordinates are in the block's ranges. -/
theorem mem_blk (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v17).slice (win1_5.rect t)).set ↔ _
  rw [View.set_slice_whole, Rect.mem_set_unit]
  exact Iff.rfl

/-- Row `r` lies in block `r / 5000`. -/
theorem cover (i : S100000x16.Idx) : ∃ t : Fin cfg1.N, (cfg1.win 5).flush t = true ∧ i ∈ ((cfg1.win 5).blk t).view.set := by
  have h0 : (i 0).val < 100000 := (i 0).isLt
  have h1 : (i 1).val < 16 := (i 1).isLt
  have hN : cfg1.N = 20 := N_1
  refine ⟨⟨(i 0).val / 5000, by omega⟩, flush1_5 _, ?_⟩
  rw [mem_blk]
  obtain ⟨-, -, -, -, -, -, -, -, -, -, e4, e5⟩ := idx_facts ⟨(i 0).val / 5000, by omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win1_5.index ⟨(i 0).val / 5000, _⟩ (1 : Fin 2) * 16 ≤ (i 1).val ∧ (i 1).val < win1_5.index ⟨(i 0).val / 5000, _⟩ (1 : Fin 2) * 16 + 16
    rw [e5]; omega

/-- THE ARRAY after the second region. -/
theorem arr1 (c : Dev nD) : (dat1 (F := Ideal) V c).arrAt 5 cfg1.N = hidArr V c :=
  (dat1 (F := Ideal) V c).arrAt_eq_of_cover 5 (hidArr V c) (fun t _ => flushed_eq V c t) cover

end Cert.KernelIdeal.RegionHid

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.RegionOutBlock.lean ====
/-
  The arithmetic of the third region's body on one block of rows, read entry by entry over the extended reals.

  The body takes a block `h` of 5000 rows of hidden features and the matching block `a` of their neighbour sums,
  two weight matrices and two bias rows, and forms, row by row,
    s = h + a,   u = max (s · W₃ + b₃) 0,   v = u · W₄ + b₄,   y = v − max_c v,   out = y − log (Σ_c exp y).
  The changes of number format on the way into the two products are the identity on the extended reals, and a
  product accumulated into a zero splat is the plain sum over the contracted coordinate. So the entry (p, c) of the
  result is the row-wise log-softmax of the logits of the table `h + a`, as the specification spells them, at (p, c).

  The body is cut into five steps, each a definition with the body's own text, and each step is read at an entry
  given by coordinates; the body is the composition of the steps by unfolding.
-/
import proofs.«134208_j34832184770974_2_alg».proof.Proof.Gen.KernelIdeal.Skeleton
import proofs.«134208_j34832184770974_2_alg».proof.Proof.Spec
import proofs.«134208_j34832184770974_2_alg».proof.Proof.LibPlainDot
import proofs.«134208_j34832184770974_2_alg».proof.Proof.LibLaneSum
import proofs.«134208_j34832184770974_2_alg».proof.Proof.LibColumn
import Idealize.ShloMosaic.Lib.ValueLayout
import Idealize.ShloMosaic.Lib.Pipeline.Value

noncomputable section

namespace Cert.KernelIdeal.RegionOut

open Cert.KernelIdeal Cert.KernelIdeal.Gen Idealize.ShloMosaic Idealize.ShloMosaic.ValueIdx

/-! ## General readings -/

/-- The largest entry of row `i` of a matrix, folded from the accumulator's value: over the column coordinate. -/
theorem max_last2 {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun d => src (ix2 i d)) := by
  refine (Ideal.multiReduction_maximumf_single src acc h hφ hacc (ix1 i)).trans ?_
  have hf : (src ∘ h.lift (ix1 i)) = fun d : Fin b => src (ix2 i d) :=
    funext fun d => congrArg src (funext fun ax => Fin.ext (by match ax with | ⟨0, _⟩ => rfl | ⟨1, _⟩ => rfl))
  exact congrArg (fun f => Finset.fold max (Ideal.ofBits φ acc) f (Finset.univ : Finset (Fin b))) hf

/-- A per-row value `[a]` kept as a column and broadcast along the rows' entries reads, at every entry of row `p`,
    the row's value. -/
theorem keepRow_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ v hc) hb (ix2 p c) = v (ix1 p) :=
  (Cert.GraphConv.Column.broadcastTo_a1_ab_apply _ hb p c).trans (Cert.GraphConv.Column.shapeCast_a_a1_apply v hc p 0)

/-- A product of a `[5000, 16]` block with a `[16, N]` matrix accumulated into a zero splat, plus a bias row broadcast
    down the rows, at the entry `(p, c)`: the plain sum over the contracted coordinate plus the bias at `c`. The
    roundings of the operands' formats are the identity on the extended reals. -/
theorem affine_apply {N : ℕ} (d : DotDims ⟨2, ![5000, 16]⟩ ⟨2, ![16, N]⟩ ⟨2, ![5000, N]⟩) (hd : d = DotDims.plain 5000 16 N)
    (s : FVec Ideal ⟨2, ![5000, 16]⟩ .f32) (w : FVec Ideal ⟨2, ![16, N]⟩ .f32) (b : FVec Ideal ⟨2, ![1, N]⟩ .f32)
    (hlt : FTy.bits .bf16 < FTy.bits .f32) (hc : (⟨2, ![1, N]⟩ : Shape).ShapeCasts ⟨2, ![1, N]⟩)
    (hb : (⟨2, ![1, N]⟩ : Shape).Broadcasts ⟨2, ![5000, N]⟩) (p : Fin 5000) (c : Fin N) :
    addf (matmul d none (truncf .bf16 s hlt) (truncf .bf16 w hlt) (constant (F := Ideal) ⟨2, ![5000, N]⟩ .f32 0x00000000#32))
        (broadcastTo ⟨2, ![5000, N]⟩ (shapeCast ⟨2, ![1, N]⟩ b hc) hb) (ix2 p c)
      = (∑ k : Fin 16, s (ix2 p k) * w (ix2 k c)) + b (ix2 (0 : Fin 1) c) := by
  rw [shapeCast_self]
  refine (addf_apply _ _ _).trans ?_
  refine congrArg₂ (· + ·) ?_ (broadcastTo_1b_ab_apply b hb p c)
  exact Cert.PlainDot.matmul_zero_apply d hd none (truncf .bf16 s hlt) (truncf .bf16 w hlt) p c

/-! ## The body's five steps -/

/-- The block of hidden features plus the block of neighbour sums. -/
def stepSum (x0 x1 : Vec Ideal S5000x16 .f32) : FVec Ideal S5000x16 .f32 :=
  addf (shapeCast S5000x16 x0 shapeCasts_S5000x16_S5000x16) (shapeCast S5000x16 x1 shapeCasts_S5000x16_S5000x16)

/-- A linear layer, its bias and the rectifier. -/
def stepHid (s : FVec Ideal S5000x16 .f32) (x2 : Vec Ideal S16x16 .f32) (x3 : Vec Ideal S1x16 .f32) : FVec Ideal S5000x16 .f32 :=
  maximumf
    (addf (matmul dot_S5000x16_S16x16_S5000x16_1_0_0_1_n_n none (truncf .bf16 s bitsLt_bf16_f32) (truncf .bf16 x2 bitsLt_bf16_f32)
        (constant S5000x16 .f32 0x00000000#32))
      (broadcastTo S5000x16 (shapeCast S1x16 x3 shapeCasts_S1x16_S1x16) broadcasts_S1x16_S5000x16))
    (broadcast S5000x16 (Scalar.ofBits .f32 0x00000000#32))

/-- The last linear layer and its bias. -/
def stepLogits (u : FVec Ideal S5000x16 .f32) (x4 : Vec Ideal S16x7 .f32) (x5 : Vec Ideal S1x7 .f32) : FVec Ideal S5000x7 .f32 :=
  addf (matmul dot_S5000x16_S16x7_S5000x7_1_0_0_1_n_n none (truncf .bf16 u bitsLt_bf16_f32) (truncf .bf16 x4 bitsLt_bf16_f32)
      (constant S5000x7 .f32 0x00000000#32))
    (broadcastTo S5000x7 (shapeCast S1x7 x5 shapeCasts_S1x7_S1x7) broadcasts_S1x7_S5000x7)

/-- Each row shifted by its largest entry. -/
def stepShift (v : FVec Ideal S5000x7 .f32) : FVec Ideal S5000x7 .f32 :=
  subf v (broadcastTo S5000x7
    (shapeCast S5000x1 (multiReduction .maximumf [1] S5000 v 0xFF800000#32 reduces_S5000x7_S5000 (.inl rfl) rfl) shapeCasts_S5000_S5000x1)
    broadcasts_S5000x1_S5000x7)

/-- Each row minus the logarithm of the sum of its exponentials. -/
def stepNorm (y : FVec Ideal S5000x7 .f32) : FVec Ideal S5000x7 .f32 :=
  subf y (broadcastTo S5000x7
    (log (shapeCast S5000x1 (multiReduction .add [1] S5000 (exp y) 0x00000000#32 reduces_S5000x7_S5000 (.inl rfl) rfl) shapeCasts_S5000_S5000x1))
    broadcasts_S5000x1_S5000x7)

/-- The body's stored value is the five steps in turn. -/
theorem pay_steps (x0 x1 : Vec Ideal S5000x16 .f32) (x2 : Vec Ideal S16x16 .f32) (x3 : Vec Ideal S1x16 .f32)
    (x4 : Vec Ideal S16x7 .f32) (x5 : Vec Ideal S1x7 .f32) :
    k2_pay1 (F := Ideal) x0 x1 x2 x3 x4 x5 = stepNorm (stepShift (stepLogits (stepHid (stepSum x0 x1) x2 x3) x4 x5)) := rfl

theorem stepSum_apply (x0 x1 : Vec Ideal S5000x16 .f32) (p : Fin 5000) (l : Fin 16) :
    stepSum x0 x1 (ix2 p l) = x0 (ix2 p l) + x1 (ix2 p l) := by
  unfold stepSum
  rw [shapeCast_self, shapeCast_self]
  rfl

theorem stepHid_apply (s : FVec Ideal S5000x16 .f32) (x2 : Vec Ideal S16x16 .f32) (x3 : Vec Ideal S1x16 .f32) (p : Fin 5000) (k : Fin 16) :
    stepHid s x2 x3 (ix2 p k)
      = max ((∑ l : Fin 16, s (ix2 p l) * x2 (ix2 l k)) + x3 (ix2 (0 : Fin 1) k)) (Ideal.ofBits .f32 0x00000000#32) := by
  unfold stepHid
  refine (maximumf_apply _ _ _).trans ?_
  refine congrArg (fun t => max t (Ideal.ofBits .f32 0x00000000#32)) ?_
  exact affine_apply dot_S5000x16_S16x16_S5000x16_1_0_0_1_n_n rfl s x2 x3 bitsLt_bf16_f32 shapeCasts_S1x16_S1x16 broadcasts_S1x16_S5000x16 p k

theorem stepLogits_apply (u : FVec Ideal S5000x16 .f32) (x4 : Vec Ideal S16x7 .f32) (x5 : Vec Ideal S1x7 .f32) (p : Fin 5000) (c : Fin 7) :
    stepLogits u x4 x5 (ix2 p c) = (∑ k : Fin 16, u (ix2 p k) * x4 (ix2 k c)) + x5 (ix2 (0 : Fin 1) c) := by
  unfold stepLogits
  exact affine_apply dot_S5000x16_S16x7_S5000x7_1_0_0_1_n_n rfl u x4 x5 bitsLt_bf16_f32 shapeCasts_S1x7_S1x7 broadcasts_S1x7_S5000x7 p c

theorem stepShift_apply (v : FVec Ideal S5000x7 .f32) (p : Fin 5000) (c : Fin 7) :
    stepShift v (ix2 p c)
      = v (ix2 p c) - (Finset.univ : Finset (Fin 7)).fold max (Ideal.ofBits .f32 0xFF800000#32) (fun c' => v (ix2 p c')) := by
  unfold stepShift
  refine (subf_apply _ _ _).trans ?_
  refine congrArg (fun t => v (ix2 p c) - t) ?_
  refine (keepRow_apply _ shapeCasts_S5000_S5000x1 broadcasts_S5000x1_S5000x7 p c).trans ?_
  exact max_last2 v 0xFF800000#32 reduces_S5000x7_S5000 (.inl rfl) rfl p

theorem stepNorm_apply (y : FVec Ideal S5000x7 .f32) (p : Fin 5000) (c : Fin 7) :
    stepNorm y (ix2 p c) = y (ix2 p c) - Ideal.log (∑ c' : Fin 7, Ideal.exp (y (ix2 p c'))) := by
  unfold stepNorm
  refine (subf_apply _ _ _).trans ?_
  refine congrArg (fun t => y (ix2 p c) - t) ?_
  refine (Cert.GraphConv.Column.broadcastTo_a1_ab_apply _ broadcasts_S5000x1_S5000x7 p c).trans ?_
  show Ideal.log (shapeCast S5000x1 _ shapeCasts_S5000_S5000x1 (ix2 p (0 : Fin 1))) = _
  refine congrArg Ideal.log ?_
  refine (Cert.GraphConv.Column.shapeCast_a_a1_apply _ shapeCasts_S5000_S5000x1 p 0).trans ?_
  exact Cert.LaneSum.sum_last2 (exp y) 0x00000000#32 reduces_S5000x7_S5000 (.inl rfl) rfl p

/-! ## The body at an entry -/

/-- The entry `(p, c)` of the block the body stores: the row-wise log-softmax of the logits of `h + a`, at `(p, c)`. -/
theorem pay_apply (x0 x1 : Vec Ideal S5000x16 .f32) (x2 : Vec Ideal S16x16 .f32) (x3 : Vec Ideal S1x16 .f32)
    (x4 : Vec Ideal S16x7 .f32) (x5 : Vec Ideal S1x7 .f32) (p : Fin 5000) (c : Fin 7) :
    k2_pay1 (F := Ideal) x0 x1 x2 x3 x4 x5 (ix2 p c)
      = Cert.Gin.logSoftmax (Ideal.ofBits .f32 0xFF800000#32)
          (Cert.Gin.logitsOf (Ideal.ofBits .f32 0x00000000#32) (fun p l => x0 (ix2 p l) + x1 (ix2 p l))
            (fun k j => x2 (ix2 k j)) (fun j => x3 (ix2 (0 : Fin 1) j)) (fun k j => x4 (ix2 k j)) (fun j => x5 (ix2 (0 : Fin 1) j)))
          p c := by
  rw [pay_steps]
  unfold Cert.Gin.logSoftmax Cert.Gin.rowMax Cert.Gin.logitsOf Cert.Gin.mm
  simp only [stepNorm_apply, stepShift_apply, stepLogits_apply, stepHid_apply, stepSum_apply]

end Cert.KernelIdeal.RegionOut

end
-- ==== Proof.RegionOut.lean ====
/-
  What the third region leaves in its output array: the row-wise log-softmax of the logits of `H + agg H`.

  The region walks twenty blocks of 5000 rows.  At block `t` the body reads rows `5000·t … 5000·t + 4999` of the
  hidden features `H` [100000, 16] and of their neighbour sums `A` [100000, 16], and the whole of two weight
  matrices and two bias rows, and stores, row by row, the log-softmax of the logits of `H + A`.  Every step of that
  arithmetic is local to a row: entry `(p, c)` of the stored block depends on row `p` of the two row blocks only,
  which is row `5000·t + p` of the arrays.  So the stored block is block `t` of one function of the whole arrays,
  and since the twenty blocks tile the output, the array ends holding that function.
-/
import proofs.«134208_j34832184770974_2_alg».proof.Proof.Gen.KernelIdeal.Frame
import proofs.«134208_j34832184770974_2_alg».proof.Proof.Spec
import proofs.«134208_j34832184770974_2_alg».proof.Proof.RegionOutBlock
import Idealize.ShloMosaic.Lib.Pipeline.Value
import Idealize.ShloMosaic.Lib.ValueIdx

noncomputable section

namespace Cert.KernelIdeal.RegionOut

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- A matrix of extended reals read at row `i`, column `j`. -/
abbrev at2 {a b : ℕ} (x : (⟨2, ![a, b]⟩ : Shape).Idx → EReal) (i : Fin a) (j : Fin b) : EReal := x (ix2 i j)

/-- The array the third region leaves: row-wise log-softmax of the logits of h + agg. -/
def outArr (c : Dev nD) : S100000x7.Idx → EReal := fun i =>
  Cert.Gin.logSoftmax (Ideal.ofBits .f32 0xFF800000#32)
    (Cert.Gin.logitsOf (Ideal.ofBits .f32 0x00000000#32)
      (fun n l => at2 (V c main_v17) n l + at2 (V c main_v27) n l)
      (fun k j => at2 (V c main_arg6) k j) (fun j => at2 (V c main_v28) 0 j)
      (fun k j => at2 (V c main_arg8) k j) (fun j => at2 (V c main_v29) 0 j))
    (i 0) (i 1)

/-- The log-softmax of the logits is local to a row: it reads the table only in the row it is asked at. -/
theorem row_local {N N' K D C : ℕ} (ninf z : EReal) (S : Fin N → Fin K → EReal) (S' : Fin N' → Fin K → EReal)
    (W3 : Fin K → Fin D → EReal) (b3 : Fin D → EReal) (W4 : Fin D → Fin C → EReal) (b4 : Fin C → EReal)
    (n : Fin N) (n' : Fin N') (h : ∀ k, S n k = S' n' k) (c : Fin C) :
    Cert.Gin.logSoftmax ninf (Cert.Gin.logitsOf z S W3 b3 W4 b4) n c
      = Cert.Gin.logSoftmax ninf (Cert.Gin.logitsOf z S' W3 b3 W4 b4) n' c := by
  unfold Cert.Gin.logSoftmax Cert.Gin.rowMax Cert.Gin.logitsOf Cert.Gin.mm
  simp only [h]

theorem hz : (![0, 0] : Fin 2 → Nat) = fun _ => 0 := funext fun a => by fin_cases a <;> rfl

/-- Where the blocks sit: the two row-blocked operands and the result at block row `t`, the weights and biases at
    the origin. -/
theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0 :=
  (by decide +kernel : ∀ t : Fin grid2.N, _)

theorem idx_whole : ∀ t : Fin cfg2.N, win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem t_lt (t : Fin cfg2.N) : t.val < 20 := lt_of_lt_of_eq t.isLt N_2

/-- Row `p` of block `t`, as a row of the arrays. -/
abbrev rowOf (t : Fin cfg2.N) (p : Fin 5000) : Fin 100000 := ⟨t.val * 5000 + p.val, by have := t_lt t; omega⟩

/-- Entry `(p, l)` of the hidden-feature block at `t` is entry `(5000·t + p, l)` of the array. -/
theorem emb0 (t : Fin cfg2.N) (p : Fin 5000) (l : Fin 16) :
    ((cfg2.win 0).blk t).view.emb (ix2 p l) = ix2 (rowOf t p) l := by
  funext a; apply Fin.ext
  match a with
  | ⟨0, _⟩ => show win2_0.index t (0 : Fin 2) * 5000 + 1 * p.val = t.val * 5000 + p.val; rw [(idx_rows t).1]; omega
  | ⟨1, _⟩ => show win2_0.index t (1 : Fin 2) * 16 + 1 * l.val = l.val; rw [(idx_rows t).2.1]; omega

/-- Entry `(p, l)` of the neighbour-sum block at `t` is entry `(5000·t + p, l)` of the array. -/
theorem emb1 (t : Fin cfg2.N) (p : Fin 5000) (l : Fin 16) :
    ((cfg2.win 1).blk t).view.emb (ix2 p l) = ix2 (rowOf t p) l := by
  funext a; apply Fin.ext
  match a with
  | ⟨0, _⟩ => show win2_1.index t (0 : Fin 2) * 5000 + 1 * p.val = t.val * 5000 + p.val; rw [(idx_rows t).2.2.1]; omega
  | ⟨1, _⟩ => show win2_1.index t (1 : Fin 2) * 16 + 1 * l.val = l.val; rw [(idx_rows t).2.2.2.1]; omega

/-- The first weight block is the whole weight array. -/
theorem emb2 (t : Fin cfg2.N) (k : Fin 16) (j : Fin 16) : ((cfg2.win 2).blk t).view.emb (ix2 k j) = ix2 k j := by
  funext a; apply Fin.ext
  match a with
  | ⟨0, _⟩ => show win2_2.index t (0 : Fin 2) * 16 + 1 * k.val = k.val; rw [(idx_whole t).1]; omega
  | ⟨1, _⟩ => show win2_2.index t (1 : Fin 2) * 16 + 1 * j.val = j.val; rw [(idx_whole t).2.1]; omega

/-- The first bias block is the whole bias row. -/
theorem emb3 (t : Fin cfg2.N) (u : Fin 1) (j : Fin 16) : ((cfg2.win 3).blk t).view.emb (ix2 u j) = ix2 u j := by
  funext a; apply Fin.ext
  match a with
  | ⟨0, _⟩ => show win2_3.index t (0 : Fin 2) * 1 + 1 * u.val = u.val; rw [(idx_whole t).2.2.1]; omega
  | ⟨1, _⟩ => show win2_3.index t (1 : Fin 2) * 16 + 1 * j.val = j.val; rw [(idx_whole t).2.2.2.1]; omega

/-- The second weight block is the whole weight array. -/
theorem emb4 (t : Fin cfg2.N) (k : Fin 16) (j : Fin 7) : ((cfg2.win 4).blk t).view.emb (ix2 k j) = ix2 k j := by
  funext a; apply Fin.ext
  match a with
  | ⟨0, _⟩ => show win2_4.index t (0 : Fin 2) * 16 + 1 * k.val = k.val; rw [(idx_whole t).2.2.2.2.1]; omega
  | ⟨1, _⟩ => show win2_4.index t (1 : Fin 2) * 7 + 1 * j.val = j.val; rw [(idx_whole t).2.2.2.2.2.1]; omega

/-- The second bias block is the whole bias row. -/
theorem emb5 (t : Fin cfg2.N) (u : Fin 1) (j : Fin 7) : ((cfg2.win 5).blk t).view.emb (ix2 u j) = ix2 u j := by
  funext a; apply Fin.ext
  match a with
  | ⟨0, _⟩ => show win2_5.index t (0 : Fin 2) * 1 + 1 * u.val = u.val; rw [(idx_whole t).2.2.2.2.2.2.1]; omega
  | ⟨1, _⟩ => show win2_5.index t (1 : Fin 2) * 7 + 1 * j.val = j.val; rw [(idx_whole t).2.2.2.2.2.2.2]; omega

/-- Entry `(p, q)` of the result block at `t` is entry `(5000·t + p, q)` of the result array. -/
theorem emb6 (t : Fin cfg2.N) (p : Fin 5000) (q : Fin 7) :
    ((cfg2.win 6).blk t).view.emb (ix2 p q) = ix2 (rowOf t p) q := by
  funext a; apply Fin.ext
  match a with
  | ⟨0, _⟩ => show win2_6.index t (0 : Fin 2) * 5000 + 1 * p.val = t.val * 5000 + p.val; rw [(idx_rows t).2.2.2.2.1]; omega
  | ⟨1, _⟩ => show win2_6.index t (1 : Fin 2) * 7 + 1 * q.val = q.val; rw [(idx_rows t).2.2.2.2.2]; omega

/-! ## Each operand's block, read off its array -/

theorem blk0 (c : Dev nD) (t : Fin cfg2.N) (p : Fin 5000) (l : Fin 16) :
    iblk2 V c 0 t (ix2 p l) = at2 (V c main_v17) (rowOf t p) l := by
  show (V c main_v17 : S100000x16.Idx → EReal) (((cfg2.win 0).blk t).view.emb (ix2 p l)) = _
  rw [emb0]

theorem blk1 (c : Dev nD) (t : Fin cfg2.N) (p : Fin 5000) (l : Fin 16) :
    iblk2 V c 1 t (ix2 p l) = at2 (V c main_v27) (rowOf t p) l := by
  show (V c main_v27 : S100000x16.Idx → EReal) (((cfg2.win 1).blk t).view.emb (ix2 p l)) = _
  rw [emb1]

theorem blk2 (c : Dev nD) (t : Fin cfg2.N) (k : Fin 16) (j : Fin 16) :
    iblk2 V c 2 t (ix2 k j) = at2 (V c main_arg6) k j := by
  show (V c main_arg6 : S16x16.Idx → EReal) (((cfg2.win 2).blk t).view.emb (ix2 k j)) = _
  rw [emb2]

theorem blk3 (c : Dev nD) (t : Fin cfg2.N) (j : Fin 16) :
    iblk2 V c 3 t (ix2 (0 : Fin 1) j) = at2 (V c main_v28) 0 j := by
  show (V c main_v28 : S1x16.Idx → EReal) (((cfg2.win 3).blk t).view.emb (ix2 (0 : Fin 1) j)) = _
  rw [emb3]

theorem blk4 (c : Dev nD) (t : Fin cfg2.N) (k : Fin 16) (j : Fin 7) :
    iblk2 V c 4 t (ix2 k j) = at2 (V c main_arg8) k j := by
  show (V c main_arg8 : S16x7.Idx → EReal) (((cfg2.win 4).blk t).view.emb (ix2 k j)) = _
  rw [emb4]

theorem blk5 (c : Dev nD) (t : Fin cfg2.N) (j : Fin 7) :
    iblk2 V c 5 t (ix2 (0 : Fin 1) j) = at2 (V c main_v29) 0 j := by
  show (V c main_v29 : S1x7.Idx → EReal) (((cfg2.win 5).blk t).view.emb (ix2 (0 : Fin 1) j)) = _
  rw [emb5]

/-! ## From blocks to the array -/

/-- What block `t` writes back is block `t` of `outArr`. -/
theorem flushed_eq (c : Dev nD) (t : Fin cfg2.N) :
    (dat2 (F := Ideal) V c).flushed 6 t = ((cfg2.win 6).blk t).view.read (Elt Ideal) (outArr V c) := by
  show (cfg2.win 6).cut (grid2.coords t) ((dat2 (F := Ideal) V c).after 6 t) = _
  rw [after2_6]
  unfold out2_6
  rw [View.canon_unit_zero hz]
  simp only [View.ld_unit_zero (S := S5000x16) hz, View.ld_unit_zero (S := S16x16) hz, View.ld_unit_zero (S := S1x16) hz,
    View.ld_unit_zero (S := S16x7) hz, View.ld_unit_zero (S := S1x7) hz]
  funext y
  obtain ⟨p, q, rfl⟩ : ∃ (p : Fin 5000) (q : Fin 7), y = ix2 p q := ⟨y 0, y 1, eq_ix2 y⟩
  show k2_pay1 (iblk2 V c 0 t) (iblk2 V c 1 t) (iblk2 V c 2 t) (iblk2 V c 3 t) (iblk2 V c 4 t) (iblk2 V c 5 t) (ix2 p q)
    = outArr V c (((cfg2.win 6).blk t).view.emb (ix2 p q))
  refine (pay_apply (iblk2 V c 0 t) (iblk2 V c 1 t) (iblk2 V c 2 t) (iblk2 V c 3 t) (iblk2 V c 4 t) (iblk2 V c 5 t) p q).trans ?_
  rw [emb6]
  have e2 : (fun (k : Fin 16) (j : Fin 16) => iblk2 V c 2 t (ix2 k j)) = fun k j => at2 (V c main_arg6) k j :=
    funext fun k => funext fun j => blk2 V c t k j
  have e3 : (fun (j : Fin 16) => iblk2 V c 3 t (ix2 (0 : Fin 1) j)) = fun j => at2 (V c main_v28) 0 j :=
    funext fun j => blk3 V c t j
  have e4 : (fun (k : Fin 16) (j : Fin 7) => iblk2 V c 4 t (ix2 k j)) = fun k j => at2 (V c main_arg8) k j :=
    funext fun k => funext fun j => blk4 V c t k j
  have e5 : (fun (j : Fin 7) => iblk2 V c 5 t (ix2 (0 : Fin 1) j)) = fun j => at2 (V c main_v29) 0 j :=
    funext fun j => blk5 V c t j
  rw [e2, e3, e4, e5]
  refine row_local _ _ _ _ _ _ _ _ p (rowOf t p) (fun l => ?_) q
  rw [blk0 V c t p l, blk1 V c t p l]

/-- An index is in block `t` of the output exactly when its coordinates are in the block's ranges. -/
theorem mem_blk (t : Fin cfg2.N) (i : S100000x7.Idx) :
    i ∈ ((cfg2.win 6).blk t).view.set ↔ ∀ a : Fin 2, win2_6.index t a * S5000x7.size a ≤ (i a).val ∧ (i a).val < win2_6.index t a * S5000x7.size a + S5000x7.size a := by
  show i ∈ ((View.whole main_v30).slice (win2_6.rect t)).set ↔ _
  rw [View.set_slice_whole, Rect.mem_set_unit]
  exact Iff.rfl

/-- Row `r` lies in block `r / 5000`. -/
theorem cover (i : S100000x7.Idx) : ∃ t : Fin cfg2.N, (cfg2.win 6).flush t = true ∧ i ∈ ((cfg2.win 6).blk t).view.set := by
  have h0 : (i 0).val < 100000 := (i 0).isLt
  have h1 : (i 1).val < 7 := (i 1).isLt
  have hN : cfg2.N = 20 := N_2
  refine ⟨⟨(i 0).val / 5000, by omega⟩, flush2_6 _, ?_⟩
  rw [mem_blk]
  obtain ⟨-, -, -, -, e4, e5⟩ := idx_rows ⟨(i 0).val / 5000, by omega⟩
  intro a
  match a with
  | ⟨0, _⟩ =>
    show win2_6.index ⟨(i 0).val / 5000, _⟩ (0 : Fin 2) * 5000 ≤ (i 0).val ∧ (i 0).val < win2_6.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win2_6.index ⟨(i 0).val / 5000, _⟩ (1 : Fin 2) * 7 ≤ (i 1).val ∧ (i 1).val < win2_6.index ⟨(i 0).val / 5000, _⟩ (1 : Fin 2) * 7 + 7
    rw [e5]; omega

/-- THE ARRAY after the third region: the log-softmax of the logits of `H + agg H`, entry by entry. -/
theorem arr2 (c : Dev nD) : (dat2 (F := Ideal) V c).arrAt 6 cfg2.N = outArr V c :=
  (dat2 (F := Ideal) V c).arrAt_eq_of_cover 6 (outArr V c) (fun t _ => flushed_eq V c t) cover

end Cert.KernelIdeal.RegionOut

end
-- ==== Proof.KernelChain.lean ====
/-
  The idealized kernel's buffers at each boundary of @main, read back to the arguments.

  @main runs: a host stretch that takes the two rows of the edge list; region 1 (the projection `P = X·W₁`); a host
  stretch that gathers rows of `P` by source node and scatter-adds them by target node (`A = agg P`) and reshapes the
  two biases; region 2 (`H = relu (relu (relu (P + A + b₁)·W₂ + b₂))`); a host stretch that does the same gather and
  scatter-add on `H` and reshapes the other two biases; region 3 (the logits of `H + agg H` and their row-wise
  log-softmax).  Each boundary's contents are a fold over the previous boundary's: a buffer no operation of a stretch
  writes and no array of a region is read through unchanged; a stretch's result is its operations' functions of what
  the stretch found; a region's output array is what the region's value module says.  Walking the result buffer back
  through the six segments gives the specification's function of the arguments.
-/
import proofs.«134208_j34832184770974_2_alg».proof.Proof.Gen.KernelIdeal.Frame
import proofs.«134208_j34832184770974_2_alg».proof.Proof.RegionProj
import proofs.«134208_j34832184770974_2_alg».proof.Proof.RegionHid
import proofs.«134208_j34832184770974_2_alg».proof.Proof.RegionOut
import proofs.«134208_j34832184770974_2_alg».proof.Proof.Agg
import Idealize.ShloMosaic.Lib.StableHlo.Run
import Idealize.ShloMosaic.Lib.ValueLayout

noncomputable section

namespace Cert.KernelIdeal.Chain

open Cert.KernelIdeal Cert.KernelIdeal.Gen Idealize.ShloMosaic Idealize.ShloMosaic.ValueIdx Idealize.ShloMosaic.TcCoe Idealize.SL.Sem
open Idealize.ShloMosaic.StableHlo

variable (m : (ℓ : Loc nD τ sig) → Buf (Elt Ideal) ℓ) (ρ : Dev nD → PrngReg) (c : Dev nD)

/-! ## The arguments, as the program names them -/

abbrev aX : S100000x64.Idx → EReal := m ((c : Thread nD τ).loc main_arg0)
abbrev aE : IVec ⟨2, ![2, 1250000]⟩ 32 := m ((c : Thread nD τ).loc main_arg1)
abbrev aW1 : S64x16.Idx → EReal := m ((c : Thread nD τ).loc main_arg2)
abbrev aB1 : S16.Idx → EReal := m ((c : Thread nD τ).loc main_arg3)
abbrev aW2 : S16x16.Idx → EReal := m ((c : Thread nD τ).loc main_arg4)
abbrev aB2 : S16.Idx → EReal := m ((c : Thread nD τ).loc main_arg5)
abbrev aW3 : S16x16.Idx → EReal := m ((c : Thread nD τ).loc main_arg6)
abbrev aB3 : S16.Idx → EReal := m ((c : Thread nD τ).loc main_arg7)
abbrev aW4 : S16x7.Idx → EReal := m ((c : Thread nD τ).loc main_arg8)
abbrev aB4 : S7.Idx → EReal := m ((c : Thread nD τ).loc main_arg9)

/-! ## After the first host stretch -/

theorem V1_arg0 : V1 m ρ c main_arg0 = m ((c : Thread nD τ).loc main_arg0) := by
  show StableHlo.after hostOps0 (W0 m ρ c) (Proc.devRef .tc main_arg0) = _
  after_results

theorem V1_arg2 : V1 m ρ c main_arg2 = m ((c : Thread nD τ).loc main_arg2) := by
  show StableHlo.after hostOps0 (W0 m ρ c) (Proc.devRef .tc main_arg2) = _
  after_results

/-- The edge list's source row. -/
theorem W1_v1 : (W1 m ρ c (Proc.devRef .tc main_v1) : S1250000.Idx → BitVec 32)
    = Cert.Gin.edgeRow ![0, 0] (by decide) (aE m c) := by
  show StableHlo.after hostOps0 (W0 m ρ c) (Proc.devRef .tc main_v1) = _
  after_results
  rfl

/-- The edge list's target row. -/
theorem W1_v3 : (W1 m ρ c (Proc.devRef .tc main_v3) : S1250000.Idx → BitVec 32)
    = Cert.Gin.edgeRow ![1, 0] (by decide) (aE m c) := by
  show StableHlo.after hostOps0 (W0 m ρ c) (Proc.devRef .tc main_v3) = _
  after_results
  rfl

theorem W1_arg (b : Ref sig .tc) (hb : b = main_arg3 ∨ b = main_arg4 ∨ b = main_arg5 ∨ b = main_arg6 ∨ b = main_arg7 ∨ b = main_arg8 ∨ b = main_arg9) :
    W1 m ρ c (Proc.devRef .tc b) = m ((c : Thread nD τ).loc b) := by
  rcases hb with rfl | rfl | rfl | rfl | rfl | rfl | rfl <;>
  · show StableHlo.after hostOps0 (W0 m ρ c) (Proc.devRef .tc _) = _
    after_results

/-! ## After the first region -/

/-- The projection. -/
def P : S100000x16.Idx → EReal := fun i =>
  Cert.Gin.mm (fun n k => aX m c (ix2 n k)) (fun k j => aW1 m c (ix2 k j)) (i 0) (i 1)

theorem W2_v4 : (W2 m ρ c (Proc.devRef .tc main_v4) : S100000x16.Idx → EReal) = P m c := by
  refine (W2_arr m ρ c 2).trans ?_
  refine (RegionProj.arr0 (V1 m ρ) c).trans ?_
  unfold RegionProj.projArr
  rw [V1_arg0, V1_arg2]
  rfl

theorem W2_v1 : (W2 m ρ c (Proc.devRef .tc main_v1) : S1250000.Idx → BitVec 32) = Cert.Gin.edgeRow ![0, 0] (by decide) (aE m c) :=
  (W2_of_ne m ρ c main_v1 (by decide)).trans (W1_v1 m ρ c)

theorem W2_v3 : (W2 m ρ c (Proc.devRef .tc main_v3) : S1250000.Idx → BitVec 32) = Cert.Gin.edgeRow ![1, 0] (by decide) (aE m c) :=
  (W2_of_ne m ρ c main_v3 (by decide)).trans (W1_v3 m ρ c)

theorem W2_arg (b : Ref sig .tc) (hb : b = main_arg3 ∨ b = main_arg4 ∨ b = main_arg5 ∨ b = main_arg6 ∨ b = main_arg7 ∨ b = main_arg8 ∨ b = main_arg9) :
    W2 m ρ c (Proc.devRef .tc b) = m ((c : Thread nD τ).loc b) := by
  refine (W2_of_ne m ρ c b ?_).trans (W1_arg m ρ c b hb)
  rcases hb with rfl | rfl | rfl | rfl | rfl | rfl | rfl <;> decide

/-! ## After the second host stretch -/

theorem V3_v4 : (V3 m ρ c main_v4 : S100000x16.Idx → EReal) = P m c := by
  refine Eq.trans ?_ (W2_v4 m ρ c)
  show StableHlo.after hostOps1 (W2 m ρ c) (Proc.devRef .tc main_v4) = _
  after_results

/-- The neighbour sums of the projection, as the stretch computes them: a gather by source, a scatter-add by target. -/
theorem V3_v14 : (V3 m ρ c main_v14 : S100000x16.Idx → EReal)
    = Host.scatterAdd (F := Ideal) scatter_S100000x16_S1250000x1_S1250000x16_1_0_0_1
        (broadcastInDim S100000x16 ![] bcast_S_S100000x16 (constant (F := Ideal) S_ .f32 0x00000000#32))
        (Cert.Gin.dstCol (aE m c))
        (Host.gather gather_S100000x16_S1250000x1_S1250000x16_1_0_n_n_0_1_116 (P m c) (Cert.Gin.srcCol (aE m c))) := by
  show StableHlo.after hostOps1 (W2 m ρ c) (Proc.devRef .tc main_v14) = _
  after_results
  rw [W2_v1, W2_v3, W2_v4]
  rfl

theorem V3_v14_apply (n : Fin 100000) (j : Fin 16) :
    (V3 m ρ c main_v14 : S100000x16.Idx → EReal) (ix2 n j)
      = Cert.Gin.agg (Cert.Gin.srcRow (aE m c)) (Cert.Gin.hits (aE m c)) (fun n j => P m c (ix2 n j)) n j := by
  rw [V3_v14]
  exact Cert.Gin.scatter_gather_apply _ _ _ (P m c) (Cert.Gin.srcCol (aE m c)) (Cert.Gin.dstCol (aE m c)) n j

theorem V3_v15 (k : Fin 16) : (V3 m ρ c main_v15 : S1x16.Idx → EReal) (ix2 0 k) = aB1 m c (ix1 k) := by
  have e : (V3 m ρ c main_v15 : S1x16.Idx → EReal) = shapeCast S1x16 (aB1 m c) shapeCasts_S16_S1x16 := by
    show StableHlo.after hostOps1 (W2 m ρ c) (Proc.devRef .tc main_v15) = _
    after_results
    rw [W2_arg m ρ c main_arg3 (Or.inl rfl)]
    rfl
  rw [e]
  exact shapeCast_a_1a_apply _ _ 0 k

theorem V3_v16 (k : Fin 16) : (V3 m ρ c main_v16 : S1x16.Idx → EReal) (ix2 0 k) = aB2 m c (ix1 k) := by
  have e : (V3 m ρ c main_v16 : S1x16.Idx → EReal) = shapeCast S1x16 (aB2 m c) shapeCasts_S16_S1x16 := by
    show StableHlo.after hostOps1 (W2 m ρ c) (Proc.devRef .tc main_v16) = _
    after_results
    rw [W2_arg m ρ c main_arg5 (Or.inr (Or.inr (Or.inl rfl)))]
    rfl
  rw [e]
  exact shapeCast_a_1a_apply _ _ 0 k

theorem V3_arg4 : (V3 m ρ c main_arg4 : S16x16.Idx → EReal) = aW2 m c := by
  refine Eq.trans ?_ (W2_arg m ρ c main_arg4 (Or.inr (Or.inl rfl)))
  show StableHlo.after hostOps1 (W2 m ρ c) (Proc.devRef .tc main_arg4) = _
  after_results

theorem W3_v1 : (W3 m ρ c (Proc.devRef .tc main_v1) : S1250000.Idx → BitVec 32) = Cert.Gin.edgeRow ![0, 0] (by decide) (aE m c) := by
  refine Eq.trans ?_ (W2_v1 m ρ c)
  show StableHlo.after hostOps1 (W2 m ρ c) (Proc.devRef .tc main_v1) = _
  after_results

theorem W3_v3 : (W3 m ρ c (Proc.devRef .tc main_v3) : S1250000.Idx → BitVec 32) = Cert.Gin.edgeRow ![1, 0] (by decide) (aE m c) := by
  refine Eq.trans ?_ (W2_v3 m ρ c)
  show StableHlo.after hostOps1 (W2 m ρ c) (Proc.devRef .tc main_v3) = _
  after_results

theorem W3_arg (b : Ref sig .tc) (hb : b = main_arg6 ∨ b = main_arg7 ∨ b = main_arg8 ∨ b = main_arg9) :
    W3 m ρ c (Proc.devRef .tc b) = m ((c : Thread nD τ).loc b) := by
  rcases hb with rfl | rfl | rfl | rfl
  · refine Eq.trans ?_ (W2_arg m ρ c main_arg6 (by simp))
    show StableHlo.after hostOps1 (W2 m ρ c) (Proc.devRef .tc main_arg6) = _
    after_results
  · refine Eq.trans ?_ (W2_arg m ρ c main_arg7 (by simp))
    show StableHlo.after hostOps1 (W2 m ρ c) (Proc.devRef .tc main_arg7) = _
    after_results
  · refine Eq.trans ?_ (W2_arg m ρ c main_arg8 (by simp))
    show StableHlo.after hostOps1 (W2 m ρ c) (Proc.devRef .tc main_arg8) = _
    after_results
  · refine Eq.trans ?_ (W2_arg m ρ c main_arg9 (by simp))
    show StableHlo.after hostOps1 (W2 m ρ c) (Proc.devRef .tc main_arg9) = _
    after_results

/-! ## After the second region -/

/-- The first layer before its rectifier, entry by entry. -/
def L1 : Fin 100000 → Fin 16 → EReal :=
  Cert.Gin.lin1K (Cert.Gin.srcRow (aE m c)) (Cert.Gin.hits (aE m c)) (fun n k => aX m c (ix2 n k)) (fun k j => aW1 m c (ix2 k j))
    (fun j => aB1 m c (ix1 j))

/-- The hidden features. -/
def H : S100000x16.Idx → EReal := fun i =>
  Cert.Gin.hidden (Ideal.ofBits .f32 0x00000000#32) (L1 m c) (fun k j => aW2 m c (ix2 k j)) (fun j => aB2 m c (ix1 j)) (i 0) (i 1)

theorem W4_v17 : (W4 m ρ c (Proc.devRef .tc main_v17) : S100000x16.Idx → EReal) = H m c := by
  refine (W4_arr m ρ c 5).trans ?_
  refine (RegionHid.arr1 (V3 m ρ) c).trans ?_
  unfold RegionHid.hidArr H
  funext i
  have hL : (fun n k => (RegionHid.at2 (V3 m ρ c main_v4) n k + RegionHid.at2 (V3 m ρ c main_v14) n k) + RegionHid.at2 (V3 m ρ c main_v15) 0 k)
      = L1 m c := by
    funext n k
    dsimp only [RegionHid.at2]
    rw [V3_v4, V3_v14_apply, V3_v15]
    rfl
  have hW : (fun k j => RegionHid.at2 (V3 m ρ c main_arg4) k j) = fun k j => aW2 m c (ix2 k j) := by
    funext k j
    show (V3 m ρ c main_arg4 : S16x16.Idx → EReal) (ix2 k j) = _
    rw [V3_arg4]
  have hB : (fun j => RegionHid.at2 (V3 m ρ c main_v16) 0 j) = fun j => aB2 m c (ix1 j) := by
    funext j
    exact V3_v16 m ρ c j
  rw [hL, hW, hB]

theorem W4_v1 : (W4 m ρ c (Proc.devRef .tc main_v1) : S1250000.Idx → BitVec 32) = Cert.Gin.edgeRow ![0, 0] (by decide) (aE m c) :=
  (W4_of_ne m ρ c main_v1 (by decide)).trans (W3_v1 m ρ c)

theorem W4_v3 : (W4 m ρ c (Proc.devRef .tc main_v3) : S1250000.Idx → BitVec 32) = Cert.Gin.edgeRow ![1, 0] (by decide) (aE m c) :=
  (W4_of_ne m ρ c main_v3 (by decide)).trans (W3_v3 m ρ c)

theorem W4_arg (b : Ref sig .tc) (hb : b = main_arg6 ∨ b = main_arg7 ∨ b = main_arg8 ∨ b = main_arg9) :
    W4 m ρ c (Proc.devRef .tc b) = m ((c : Thread nD τ).loc b) := by
  refine (W4_of_ne m ρ c b ?_).trans (W3_arg m ρ c b hb)
  rcases hb with rfl | rfl | rfl | rfl <;> decide

/-! ## After the third host stretch -/

theorem V5_v17 : (V5 m ρ c main_v17 : S100000x16.Idx → EReal) = H m c := by
  refine Eq.trans ?_ (W4_v17 m ρ c)
  show StableHlo.after hostOps2 (W4 m ρ c) (Proc.devRef .tc main_v17) = _
  after_results

theorem V5_v27 : (V5 m ρ c main_v27 : S100000x16.Idx → EReal)
    = Host.scatterAdd (F := Ideal) scatter_S100000x16_S1250000x1_S1250000x16_1_0_0_1
        (broadcastInDim S100000x16 ![] bcast_S_S100000x16 (constant (F := Ideal) S_ .f32 0x00000000#32))
        (Cert.Gin.dstCol (aE m c))
        (Host.gather gather_S100000x16_S1250000x1_S1250000x16_1_0_n_n_0_1_116 (H m c) (Cert.Gin.srcCol (aE m c))) := by
  show StableHlo.after hostOps2 (W4 m ρ c) (Proc.devRef .tc main_v27) = _
  after_results
  rw [W4_v1, W4_v3, W4_v17]
  rfl

theorem V5_v27_apply (n : Fin 100000) (j : Fin 16) :
    (V5 m ρ c main_v27 : S100000x16.Idx → EReal) (ix2 n j)
      = Cert.Gin.agg (Cert.Gin.srcRow (aE m c)) (Cert.Gin.hits (aE m c)) (fun n j => H m c (ix2 n j)) n j := by
  rw [V5_v27]
  exact Cert.Gin.scatter_gather_apply _ _ _ (H m c) (Cert.Gin.srcCol (aE m c)) (Cert.Gin.dstCol (aE m c)) n j

theorem V5_v28 (k : Fin 16) : (V5 m ρ c main_v28 : S1x16.Idx → EReal) (ix2 0 k) = aB3 m c (ix1 k) := by
  have e : (V5 m ρ c main_v28 : S1x16.Idx → EReal) = shapeCast S1x16 (aB3 m c) shapeCasts_S16_S1x16 := by
    show StableHlo.after hostOps2 (W4 m ρ c) (Proc.devRef .tc main_v28) = _
    after_results
    rw [W4_arg m ρ c main_arg7 (by simp)]
    rfl
  rw [e]
  exact shapeCast_a_1a_apply _ _ 0 k

theorem V5_v29 (k : Fin 7) : (V5 m ρ c main_v29 : S1x7.Idx → EReal) (ix2 0 k) = aB4 m c (ix1 k) := by
  have e : (V5 m ρ c main_v29 : S1x7.Idx → EReal) = shapeCast S1x7 (aB4 m c) shapeCasts_S7_S1x7 := by
    show StableHlo.after hostOps2 (W4 m ρ c) (Proc.devRef .tc main_v29) = _
    after_results
    rw [W4_arg m ρ c main_arg9 (by simp)]
    rfl
  rw [e]
  exact shapeCast_a_1a_apply _ _ 0 k

theorem V5_arg6 : (V5 m ρ c main_arg6 : S16x16.Idx → EReal) = aW3 m c := by
  refine Eq.trans ?_ (W4_arg m ρ c main_arg6 (by simp))
  show StableHlo.after hostOps2 (W4 m ρ c) (Proc.devRef .tc main_arg6) = _
  after_results

theorem V5_arg8 : (V5 m ρ c main_arg8 : S16x7.Idx → EReal) = aW4 m c := by
  refine Eq.trans ?_ (W4_arg m ρ c main_arg8 (by simp))
  show StableHlo.after hostOps2 (W4 m ρ c) (Proc.devRef .tc main_arg8) = _
  after_results

/-! ## After the third region -/

/-- The result array as a function of the arguments: the specification, products first. -/
def result : S100000x7.Idx → EReal := fun i =>
  Cert.Gin.tail (Ideal.ofBits .f32 0x00000000#32) (Ideal.ofBits .f32 0xFF800000#32) (Cert.Gin.srcRow (aE m c)) (Cert.Gin.hits (aE m c))
    (L1 m c) (fun k j => aW2 m c (ix2 k j)) (fun j => aB2 m c (ix1 j)) (fun k j => aW3 m c (ix2 k j)) (fun j => aB3 m c (ix1 j))
    (fun k j => aW4 m c (ix2 k j)) (fun j => aB4 m c (ix1 j)) (i 0) (i 1)

theorem W6_v30 : (W6 m ρ c (Proc.devRef .tc main_v30) : S100000x7.Idx → EReal) = result m c := by
  refine (W6_arr m ρ c 6).trans ?_
  refine (RegionOut.arr2 (V5 m ρ) c).trans ?_
  unfold RegionOut.outArr result Cert.Gin.tail Cert.Gin.logits
  funext i
  have hS : (fun n l => RegionOut.at2 (V5 m ρ c main_v17) n l + RegionOut.at2 (V5 m ρ c main_v27) n l)
      = fun n l => Cert.Gin.hidden (Ideal.ofBits .f32 0x00000000#32) (L1 m c) (fun k j => aW2 m c (ix2 k j)) (fun j => aB2 m c (ix1 j)) n l
          + Cert.Gin.agg (Cert.Gin.srcRow (aE m c)) (Cert.Gin.hits (aE m c))
              (Cert.Gin.hidden (Ideal.ofBits .f32 0x00000000#32) (L1 m c) (fun k j => aW2 m c (ix2 k j)) (fun j => aB2 m c (ix1 j))) n l := by
    funext n l
    dsimp only [RegionOut.at2]
    rw [V5_v17, V5_v27_apply]
    rfl
  have hW3 : (fun k j => RegionOut.at2 (V5 m ρ c main_arg6) k j) = fun k j => aW3 m c (ix2 k j) := by
    funext k j
    dsimp only [RegionOut.at2]
    rw [V5_arg6]
  have hB3 : (fun j => RegionOut.at2 (V5 m ρ c main_v28) 0 j) = fun j => aB3 m c (ix1 j) := by
    funext j
    exact V5_v28 m ρ c j
  have hW4 : (fun k j => RegionOut.at2 (V5 m ρ c main_arg8) k j) = fun k j => aW4 m c (ix2 k j) := by
    funext k j
    dsimp only [RegionOut.at2]
    rw [V5_arg8]
  have hB4 : (fun j => RegionOut.at2 (V5 m ρ c main_v29) 0 j) = fun j => aB4 m c (ix1 j) := by
    funext j
    exact V5_v29 m ρ c j
  rw [hS, hW3, hB3, hW4, hB4]

end Cert.KernelIdeal.Chain

end
-- ==== Proof.Finite.lean ====
/-
  Finite inputs are real numbers.

  The claim's precondition says, of every floating-point argument array `a`, that `|a| < +∞` holds at every
  index: it is the conjunction (a chain of one-bit `and`s) of nine reductions by `and` over all axes, each of
  the comparison words `|a i| < +∞`, and the conjunction is stated to be the word one.  A one-bit `and` is one
  exactly when both operands are one, so each reduction is one; a reduction by `and` over all axes that is one
  met only ones, so each comparison word is one, i.e. `max (a i) (-(a i)) < ⊤` on the extended reals (the bit
  pattern 0x7F800000 denotes `⊤`).  An extended real with that property is neither `⊥` (whose negation is
  `⊤`) nor `⊤`, hence the image of a real number.  The two arrays read off here are the node features
  (argument 0) and the first layer's first weight matrix (argument 2).
-/
import Idealize.ShloMosaic.Lib.ReduceAll
import Idealize.ShloMosaic.Lib.ValueIdx
import Idealize.ShloMosaic.PureOps.Ideal
import Idealize.ShloMosaic.PureOps.Ideal.Laws
import proofs.«134208_j34832184770974_2_alg».proof.Defs
import proofs.«134208_j34832184770974_2_alg».proof.Proof.LibRealLaw

noncomputable section

namespace Cert.Gin.Finite

open Idealize.ShloMosaic Idealize.SL.Sem

/-- An extended real whose absolute value `max x (-x)` lies strictly below `+∞` is a real number. -/
theorem isReal_of_abs_lt_top (x : EReal) (h : max x (-x) < ⊤) : Cert.Scores.IsReal x := by
  induction x using EReal.rec with
  | bot => simp at h
  | coe r => exact ⟨r, rfl⟩
  | top => simp at h

/-- The comparison word of `|x| < +∞` being one says that `x` is a real number. -/
theorem isReal_of_cmp (x : EReal)
    (h : FloatOps.cmpf (F := Ideal) (φ := .f32) .olt (FloatOps.hostAbsf (F := Ideal) (φ := .f32) x) (FloatOps.ofBits (F := Ideal) .f32 0x7F800000#32) = 1#1) :
    Cert.Scores.IsReal x := by
  refine isReal_of_abs_lt_top x ?_
  have e : Ideal.ofBits .f32 0x7F800000#32 = ⊤ := by simp [Ideal.ofBits, Ideal.ieee]
  have h' : Ideal.cmp .olt (max x (-x)) (Ideal.ofBits .f32 0x7F800000#32) = 1#1 := h
  rw [e] at h'
  by_contra hn
  simp [Ideal.cmp, hn] at h'

instance : Subsingleton Cert.Pre_finite_inputs.S_.Idx := ⟨fun a b => funext fun d => d.elim0⟩

/-- `jnp.all(|x| < +∞)` being one says every entry of `x` is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf x) (broadcastInDim s ![] hb (constant (F := Ideal) Cert.Pre_finite_inputs.S_ .f32 0x7F800000#32)))
      (constantI Cert.Pre_finite_inputs.S_ 1 1#1) hr hu ValueIdx.ix0 = 1#1) (i : s.Idx) : Cert.Scores.IsReal (x i) :=
  isReal_of_cmp (x i) (Host.reduce_andi_all _ _ hr hu ValueIdx.ix0 e i)

theorem real_of_pre [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Scores.IsReal ((m ((c.tc : Thread Cert.KernelIdeal.nD Cert.KernelIdeal.τ).loc Cert.KernelIdeal.main_arg0) : Cert.KernelIdeal.S100000x64.Idx → EReal) i))
    ∧ (∀ i, Cert.Scores.IsReal ((m ((c.tc : Thread Cert.KernelIdeal.nD Cert.KernelIdeal.τ).loc Cert.KernelIdeal.main_arg2) : Cert.KernelIdeal.S64x16.Idx → EReal) i)) := by
  have h0 := congrFun (h c) ValueIdx.ix0
  dsimp only [Cert.Pre_finite_inputs.fn, Cert.Pre_finite_inputs.fn_part1, Cert.Pre_finite_inputs.fn_part2, andi] at h0
  have a8 := (IntOp.andi_eq_one.1 h0).1
  have a7 := (IntOp.andi_eq_one.1 a8).1
  have a6 := (IntOp.andi_eq_one.1 a7).1
  have a5 := (IntOp.andi_eq_one.1 a6).1
  have a4 := (IntOp.andi_eq_one.1 a5).1
  have a3 := (IntOp.andi_eq_one.1 a4).1
  have a2 := (IntOp.andi_eq_one.1 a3).1
  obtain ⟨hx, hw⟩ := IntOp.andi_eq_one.1 a2
  exact ⟨fun i => all_real _ _ _ _ hx i, fun i => all_real _ _ _ _ hw i⟩

end Cert.Gin.Finite

end
-- ==== Proof.lean ====
/-
  Two programs for a two-layer graph network with sum aggregation are equal over the extended reals.

  The network maps node features `X` [100000, 64] and an edge list [2, 1250000] to class log-probabilities
  [100000, 7]: `H = relu (relu (relu ((X + agg X)·W₁ + b₁)·W₂ + b₂))`, then the row-wise log-softmax of
  `relu ((H + agg H)·W₃ + b₃)·W₄ + b₄`, where `agg T` adds to each node the rows of `T` at the sources of the edges
  that end at it.  The reference computes exactly this.  The kernel computes `P = X·W₁` first, in blocks of 5000
  rows, and aggregates the sixteen-column `P` instead of the sixty-four-column `X`: `(X + agg X)·W₁ = P + agg P`
  because a matrix product is linear in its rows — true of real numbers, and the precondition makes every entry of
  `X` and `W₁` a real number.  Everything after that is the same function on both sides: the kernel evaluates it
  block by block in two more regions, with the gather and scatter-add of the aggregation on the host between them.

  The parts: the specification over plain finite index sets and the law (Spec); the edge list's two index
  columns and the gather-scatter pair as the neighbour sum (Agg); what each of the three regions leaves in its
  output array (RegionProj, RegionHid, RegionOut); the kernel's run read at its result buffer (KernelRun) and that
  buffer walked back through the six segments of @main to the arguments (KernelChain); the reference's run and its
  operations read one at a time (RefRunP, RefReadP) and its result as the specification (RefBridge); finite
  inputs are real numbers (Finite).  The three frame claims are the generated frames and the reference's run with the
  result dropped; the idealization rewrote nothing, so it preserves the kernel trivially.
-/
import proofs.«134208_j34832184770974_2_alg».proof.Defs
import proofs.«134208_j34832184770974_2_alg».proof.Proof.Gen.Kernel
import proofs.«134208_j34832184770974_2_alg».proof.Proof.Gen.Kernel.Skeleton
import proofs.«134208_j34832184770974_2_alg».proof.Proof.Gen.Kernel.Launch
import proofs.«134208_j34832184770974_2_alg».proof.Proof.Gen.Kernel.Points
import proofs.«134208_j34832184770974_2_alg».proof.Proof.Gen.Kernel.Frame
import proofs.«134208_j34832184770974_2_alg».proof.Proof.Gen.KernelIdeal
import proofs.«134208_j34832184770974_2_alg».proof.Proof.Gen.KernelIdeal.Skeleton
import proofs.«134208_j34832184770974_2_alg».proof.Proof.Gen.KernelIdeal.Launch
import proofs.«134208_j34832184770974_2_alg».proof.Proof.Gen.KernelIdeal.Points
import proofs.«134208_j34832184770974_2_alg».proof.Proof.Gen.KernelIdeal.Frame
import proofs.«134208_j34832184770974_2_alg».proof.Proof.Gen.ReferenceIdeal
import proofs.«134208_j34832184770974_2_alg».proof.Proof.Gen.Pre_finite_inputs
import proofs.«134208_j34832184770974_2_alg».proof.Proof.RefRunP
import proofs.«134208_j34832184770974_2_alg».proof.Proof.RefReadP
import proofs.«134208_j34832184770974_2_alg».proof.Proof.RefBridge
import proofs.«134208_j34832184770974_2_alg».proof.Proof.KernelRun
import proofs.«134208_j34832184770974_2_alg».proof.Proof.KernelChain
import proofs.«134208_j34832184770974_2_alg».proof.Proof.Finite
import Idealize.ShloMosaic.Adequacy
import Idealize.ShloMosaic.Init

noncomputable section

namespace Cert.Proof

open Idealize.ShloMosaic Idealize.ShloMosaic.ValueIdx Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the specification's function of arguments that agree: the kernel in the form that
    multiplies first, the reference in the form that aggregates first, one function of real tables. -/
theorem algebraic : Cert.algebraic_KernelIdeal_ReferenceIdeal := by
  intro m ρ m' ρ' hpre hagree
  refine ⟨fun c => Cert.KernelIdeal.Chain.result m c, ?_, ?_⟩
  · exact (θ_run Cert.KernelIdeal.defs _ _).mono
      (fun r h c => ⟨(h c).1.trans (Cert.KernelIdeal.Chain.W6_v30 m ρ c), (h c).2⟩)
      (Cert.KernelIdeal.RunOut.run_out (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    obtain ⟨hx, hw⟩ := Cert.Gin.Finite.real_of_pre m hpre c
    have hL : Cert.KernelIdeal.Chain.L1 m c
        = Cert.Gin.lin1R (Cert.Gin.srcRow (Cert.KernelIdeal.Chain.aE m c)) (Cert.Gin.hits (Cert.KernelIdeal.Chain.aE m c))
            (fun n k => Cert.KernelIdeal.Chain.aX m c (ix2 n k)) (fun k j => Cert.KernelIdeal.Chain.aW1 m c (ix2 k j))
            (fun j => Cert.KernelIdeal.Chain.aB1 m c (ix1 j)) :=
      Cert.Gin.lin1_eq _ _ _ _ _ (fun n k => hx (ix2 n k)) (fun k j => hw (ix2 k j))
    rw [Cert.ReferenceIdeal.ReadP.val_main_v46_eq, e0, e1, e2, e3, e4, e5, e6, e7, e8, e9, Cert.Gin.Ref.ref_eq]
    show _ = Cert.KernelIdeal.Chain.result m c
    unfold Cert.KernelIdeal.Chain.result
    rw [hL]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
